-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x360x128 : Shape := ⟨3, ![8, 360, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S8x360x128 : S_.BroadcastsInDim S8x360x128 (![] : Fin 0 → Fin S8x360x128.rank)
  reducesTo_S8x360x128_S_d0_1_2 : S8x360x128.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8x360x128 .f32) (main_arg1 : FVec F S128x256 .f32) (main_arg2 : FVec F S128 .f32) (main_arg3 : FVec F S1x128 .f32) (main_arg4 : FVec F S1 .f32) : IVec S_ 1 :=
  let main_v0 : FVec F S8x360x128 .f32 := Host.absf main_arg0
  let main_cst : FVec F S_ .f32 := constant S_ .f32 0x7F800000#32
  let main_v1 : FVec F S8x360x128 .f32 := broadcastInDim S8x360x128 ![] bcast_S_S8x360x128 main_cst
  let main_v2 : IVec S8x360x128 1 := cmpf .olt main_v0 main_v1
  let main_c : IVec S_ 1 := constantI S_ 1 1#1
  let main_v3 : IVec S_ 1 := (fun x v => Host.reduce IntOp.andi x v reducesTo_S8x360x128_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_v13 main_v16
-- ==== Kernel.lean ====
abbrev S8x360x128 : Shape := ⟨3, ![8, 360, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S128x128 : Shape := ⟨2, ![128, 128]⟩
abbrev S1x1 : Shape := ⟨2, ![1, 1]⟩
abbrev S8x360x384 : Shape := ⟨3, ![8, 360, 384]⟩
abbrev S1x360x128 : Shape := ⟨3, ![1, 360, 128]⟩
abbrev S1x40x128 : Shape := ⟨3, ![1, 40, 128]⟩
abbrev S1x40x384 : Shape := ⟨3, ![1, 40, 384]⟩
abbrev S384x128 : Shape := ⟨2, ![384, 128]⟩
abbrev S360x128 : Shape := ⟨2, ![360, 128]⟩
abbrev S24x128 : Shape := ⟨2, ![24, 128]⟩
abbrev S40x128 : Shape := ⟨2, ![40, 128]⟩
abbrev S40x1x128 : Shape := ⟨3, ![40, 1, 128]⟩
abbrev S1x384x128 : Shape := ⟨3, ![1, 384, 128]⟩
abbrev S40x384x128 : Shape := ⟨3, ![40, 384, 128]⟩
abbrev S1x1x128 : Shape := ⟨3, ![1, 1, 128]⟩
abbrev S40x384 : Shape := ⟨2, ![40, 384]⟩
abbrev S8x360x360 : Shape := ⟨3, ![8, 360, 360]⟩
abbrev S8x360x360x1 : Shape := ⟨4, ![8, 360, 360, 1]⟩

abbrev nBuf : Space → Nat
  | .hbm => 14
  | .vmem => 12
  | .smem => 0
  | _ => 0

abbrev bufTy : (tb : Table) → Fin (tcTables nBuf tb) → BufTy
  | .hbm, ⟨0, _⟩ => ⟨S8x360x128, .f32⟩
  | .hbm, ⟨1, _⟩ => ⟨S128x256, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S1x128, .f32⟩
  | .hbm, ⟨10, _⟩ => ⟨S1x1, .f32⟩
  | .hbm, ⟨11, _⟩ => ⟨S8x360x384, .f32⟩
  | .hbm, ⟨12, _⟩ => ⟨S8x360x360, .f32⟩
  | .hbm, ⟨13, _⟩ => ⟨S8x360x360x1, .f32⟩
  | .local _ .vmem, ⟨0, _⟩ => ⟨S1x360x128, .f32⟩
  | .local _ .vmem, ⟨1, _⟩ => ⟨S1x360x128, .f32⟩
  | .local _ .vmem, ⟨2, _⟩ => ⟨S1x40x128, .f32⟩
  | .local _ .vmem, ⟨3, _⟩ => ⟨S1x40x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x1, .f32⟩
  | .local _ .vmem, ⟨9, _⟩ => ⟨S1x40x384, .f32⟩
  | .local _ .vmem, ⟨10, _⟩ => ⟨S1x40x384, .f32⟩
  | .local _ .vmem, ⟨11, _⟩ => ⟨S384x128, .f32⟩
  | _, _ => ⟨S8x360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x360x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x40x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x40x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  shapeCasts_S1_S1x1 : S1.ShapeCasts S1x1
  inb_S1x360x128_S1x360x128_0_0_0 : ∀ a, (![0, 0, 0] : Fin 3 → Nat) a + S1x360x128.size a ≤ S1x360x128.size a
  h_S1x360x128 : 0 < S1x360x128.numel
  shapeCasts_S1x360x128_S360x128 : S1x360x128.ShapeCasts S360x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S360x128 : S1x128.Broadcasts S360x128
  inb_S384x128_S360x128_0_0 : ∀ a, (![0, 0] : Fin 2 → Nat) a + S360x128.size a ≤ S384x128.size a
  h_S360x128 : 0 < S360x128.numel
  shapeCasts_S360x128_S360x128 : S360x128.ShapeCasts S360x128
  inb_S384x128_S24x128_360_0 : ∀ a, (![360, 0] : Fin 2 → Nat) a + S24x128.size a ≤ S384x128.size a
  h_S24x128 : 0 < S24x128.numel
  shapeCasts_S24x128_S24x128 : S24x128.ShapeCasts S24x128
  inb_S384x128_S384x128_0_0 : ∀ a, (![0, 0] : Fin 2 → Nat) a + S384x128.size a ≤ S384x128.size a
  h_S384x128 : 0 < S384x128.numel
  inb_S1x40x128_S1x40x128_0_0_0 : ∀ a, (![0, 0, 0] : Fin 3 → Nat) a + S1x40x128.size a ≤ S1x40x128.size a
  h_S1x40x128 : 0 < S1x40x128.numel
  shapeCasts_S1x40x128_S40x128 : S1x40x128.ShapeCasts S40x128
  shapeCasts_S40x128_S40x1x128 : S40x128.ShapeCasts S40x1x128
  shapeCasts_S384x128_S1x384x128 : S384x128.ShapeCasts S1x384x128
  broadcasts_S40x1x128_S40x384x128 : S40x1x128.Broadcasts S40x384x128
  broadcasts_S1x384x128_S40x384x128 : S1x384x128.Broadcasts S40x384x128
  shapeCasts_S1x128_S1x1x128 : S1x128.ShapeCasts S1x1x128
  broadcasts_S1x1x128_S40x384x128 : S1x1x128.Broadcasts S40x384x128
  reduces_S40x384x128_S40x384 : S40x384x128.Reduces [2] S40x384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  inb_S1x40x384_S1x40x384_0_0_0 : ∀ a, (![0, 0, 0] : Fin 3 → Nat) a + S1x40x384.size a ≤ S1x40x384.size a
  h_S1x40x384 : 0 < S1x40x384.numel
  shapeCasts_S1x40x384_S40x384 : S1x40x384.ShapeCasts S40x384
  shapeCasts_S40x384_S1x40x384 : S40x384.ShapeCasts S1x40x384
  slices_S8x360x384_S8x360x360_0_0_0 : S8x360x384.Slices ![0, 0, 0] S8x360x360
  shapeCasts_S8x360x360_S8x360x360x1 : S8x360x360.ShapeCasts S8x360x360x1
  dot_S360x128_S128x128_S360x128_1_0_0_1_n_n_wf : DotDims.WF S360x128 S128x128 S360x128 [1] [0] [0] [1] [] []
  dot_S40x128_S128x128_S40x128_1_0_0_1_n_n_wf : DotDims.WF S40x128 S128x128 S40x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x360x128.size a ≤ S8x360x128.size a
  hwx0_0 : ∀ i : grid0.Coords, EltTy.bits .f32 = 32 ∨ (Rect.block (s := S8x360x128) S1x360x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x40x128.size a ≤ S8x360x128.size a
  hwx0_1 : ∀ i : grid0.Coords, EltTy.bits .f32 = 32 ∨ (Rect.block (s := S8x360x128) S1x40x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x40x384.size a ≤ S8x360x384.size a
  hwx0_7 : ∀ i : grid0.Coords, EltTy.bits .f32 = 32 ∨ (Rect.block (s := S8x360x384) S1x40x384.size (cc0_transform_7 i) (hinb0_7 i)).WholeWords (EltTy.packing .f32)

variable [Facts₀]

def dot_S360x128_S128x128_S360x128_1_0_0_1_n_n : DotDims S360x128 S128x128 S360x128 where
  lhsContracting := [1]
  rhsContracting := [0]
  lhsNonContracting := [0]
  rhsNonContracting := [1]
  lhsBatch := []
  rhsBatch := []
  wf := dot_S360x128_S128x128_S360x128_1_0_0_1_n_n_wf
def dot_S40x128_S128x128_S40x128_1_0_0_1_n_n : DotDims S40x128 S128x128 S40x128 where
  lhsContracting := [1]
  rhsContracting := [0]
  lhsNonContracting := [0]
  rhsNonContracting := [1]
  lhsBatch := []
  rhsBatch := []
  wf := dot_S40x128_S128x128_S40x128_1_0_0_1_n_n_wf

abbrev win0_0 : Pipeline.Window sig grid0 :=
  Pipeline.Window.ofSpec (Memref.whole main_arg0) S1x360x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x40x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x40x384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x360x128 : Shape := ⟨3, ![8, 360, 128]⟩
abbrev S128x256 : Shape := ⟨2, ![128, 256]⟩
abbrev S128 : Shape := ⟨1, ![128]⟩
abbrev S1x128 : Shape := ⟨2, ![1, 128]⟩
abbrev S1 : Shape := ⟨1, ![1]⟩
abbrev S8x1x360x128 : Shape := ⟨4, ![8, 1, 360, 128]⟩
abbrev S8x360x360x128 : Shape := ⟨4, ![8, 360, 360, 128]⟩
abbrev S8x360x1x128 : Shape := ⟨4, ![8, 360, 1, 128]⟩
abbrev S8x360x360x256 : Shape := ⟨4, ![8, 360, 360, 256]⟩
abbrev S1x1x1x128 : Shape := ⟨4, ![1, 1, 1, 128]⟩
abbrev S_ : Shape := ⟨0, ![]⟩
abbrev S8x360x360x1 : Shape := ⟨4, ![8, 360, 360, 1]⟩
abbrev S1x1x1x1 : Shape := ⟨4, ![1, 1, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x360x128, .f32⟩
  | .hbm, ⟨1, _⟩ => ⟨S128x256, .f32⟩
  | .hbm, ⟨2, _⟩ => ⟨S128, .f32⟩
  | .hbm, ⟨3, _⟩ => ⟨S1x128, .f32⟩
  | .hbm, ⟨4, _⟩ => ⟨S1, .f32⟩
  | .hbm, ⟨5, _⟩ => ⟨S8x1x360x128, .f32⟩
  | .hbm, ⟨6, _⟩ => ⟨S8x360x360x128, .f32⟩
  | .hbm, ⟨7, _⟩ => ⟨S8x360x1x128, .f32⟩
  | .hbm, ⟨8, _⟩ => ⟨S8x360x360x128, .f32⟩
  | .hbm, ⟨9, _⟩ => ⟨S8x360x360x256, .f32⟩
  | .hbm, ⟨10, _⟩ => ⟨S8x360x360x128, .f32⟩
  | .hbm, ⟨11, _⟩ => ⟨S1x1x1x128, .f32⟩
  | .hbm, ⟨12, _⟩ => ⟨S8x360x360x128, .f32⟩
  | .hbm, ⟨13, _⟩ => ⟨S8x360x360x128, .f32⟩
  | .hbm, ⟨14, _⟩ => ⟨S_, .f32⟩
  | .hbm, ⟨15, _⟩ => ⟨S8x360x360x128, .f32⟩
  | .hbm, ⟨16, _⟩ => ⟨S8x360x360x128, .f32⟩
  | .hbm, ⟨17, _⟩ => ⟨S8x360x360x1, .f32⟩
  | .hbm, ⟨18, _⟩ => ⟨S1x1x1x1, .f32⟩
  | .hbm, ⟨19, _⟩ => ⟨S8x360x360x1, .f32⟩
  | .hbm, ⟨20, _⟩ => ⟨S8x360x360x1, .f32⟩
  | .hbm, ⟨21, _⟩ => ⟨S_, .f32⟩
  | .hbm, ⟨22, _⟩ => ⟨S8x360x360x1, .f32⟩
  | .hbm, ⟨23, _⟩ => ⟨S8x360x360x1, .f32⟩
  | _, _ => ⟨S8x360x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call1_cst : Ref sig .tc := ⟨.hbm, 21, rfl⟩
abbrev main_call1_v0 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S8x360x128_S8x1x360x128_0_2_3 : S8x360x128.BroadcastsInDim S8x1x360x128 (![0, 2, 3] : Fin 3 → Fin S8x1x360x128.rank)
  bcast_S8x1x360x128_S8x360x360x128_0_1_2_3 : S8x1x360x128.BroadcastsInDim S8x360x360x128 (![0, 1, 2, 3] : Fin 4 → Fin S8x360x360x128.rank)
  bcast_S8x360x128_S8x360x1x128_0_1_3 : S8x360x128.BroadcastsInDim S8x360x1x128 (![0, 1, 3] : Fin 3 → Fin S8x360x1x128.rank)
  bcast_S8x360x1x128_S8x360x360x128_0_1_2_3 : S8x360x1x128.BroadcastsInDim S8x360x360x128 (![0, 1, 2, 3] : Fin 4 → Fin S8x360x360x128.rank)
  concatenates_S8x360x360x128_S8x360x360x128_S8x360x360x256_d3 : Shape.Concatenates [S8x360x360x128, S8x360x360x128] S8x360x360x256 3
  bcast_S128_S1x1x1x128_3 : S128.BroadcastsInDim S1x1x1x128 (![3] : Fin 1 → Fin S1x1x1x128.rank)
  bcast_S1x1x1x128_S8x360x360x128_0_1_2_3 : S1x1x1x128.BroadcastsInDim S8x360x360x128 (![0, 1, 2, 3] : Fin 4 → Fin S8x360x360x128.rank)
  bcast_S_S8x360x360x128 : S_.BroadcastsInDim S8x360x360x128 (![] : Fin 0 → Fin S8x360x360x128.rank)
  bcast_S1_S1x1x1x1_3 : S1.BroadcastsInDim S1x1x1x1 (![3] : Fin 1 → Fin S1x1x1x1.rank)
  bcast_S1x1x1x1_S8x360x360x1_0_1_2_3 : S1x1x1x1.BroadcastsInDim S8x360x360x1 (![0, 1, 2, 3] : Fin 4 → Fin S8x360x360x1.rank)
  bcast_S_S8x360x360x1 : S_.BroadcastsInDim S8x360x360x1 (![] : Fin 0 → Fin S8x360x360x1.rank)
  dot_S8x360x360x256_S128x256_S8x360x360x128_3_1_012_0_n_n_wf : DotDims.WF S8x360x360x256 S128x256 S8x360x360x128 [3] [1] [0, 1, 2] [0] [] []
  dot_S8x360x360x128_S1x128_S8x360x360x1_3_1_012_0_n_n_wf : DotDims.WF S8x360x360x128 S1x128 S8x360x360x1 [3] [1] [0, 1, 2] [0] [] []

variable [Facts₀]

def dot_S8x360x360x256_S128x256_S8x360x360x128_3_1_012_0_n_n : DotDims S8x360x360x256 S128x256 S8x360x360x128 where
  lhsContracting := [3]
  rhsContracting := [1]
  lhsNonContracting := [0, 1, 2]
  rhsNonContracting := [0]
  lhsBatch := []
  rhsBatch := []
  wf := dot_S8x360x360x256_S128x256_S8x360x360x128_3_1_012_0_n_n_wf
def dot_S8x360x360x128_S1x128_S8x360x360x1_3_1_012_0_n_n : DotDims S8x360x360x128 S1x128 S8x360x360x1 where
  lhsContracting := [3]
  rhsContracting := [1]
  lhsNonContracting := [0, 1, 2]
  rhsNonContracting := [0]
  lhsBatch := []
  rhsBatch := []
  wf := dot_S8x360x360x128_S1x128_S8x360x360x1_3_1_012_0_n_n_wf

class Facts : Prop extends Facts₀ where

variable [Facts]
-- ==== Proof.KB.Defs.lean ====
/-
  What the runs of the kernel body share: the arrays as the region finds them (after the six host operations that
  slice and transpose the first layer's weight and reshape the two biases), each window's block at a grid point,
  the fact that an input window's staging buffer holds its block at every point, the one condition the body
  branches on (the tile coordinate is zero: the first tile of a batch, where the sender projection is computed
  and stored in the scratch), and the staging memrefs as the pipeline passes them.
-/
import proofs.«143059_j28613072126235_2_alg».proof.Proof.Gen.Kernel.Launch
import proofs.«143059_j28613072126235_2_alg».proof.Proof.Gen.Kernel.Skeleton
import proofs.«143059_j28613072126235_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is
    not fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is
    not fetched its block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is
    not fetched its block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is
    not fetched its block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is
    not fetched its block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where it is
    not fetched its block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: where it is
    not fetched its block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one condition: the tile coordinate is zero. -/
abbrev cond0_0 (i : grid0.Coords) : Prop := (Scalar.cmpi .ne (Scalar.extui (Scalar.cmpi .eq (BitVec.ofNat 32 (i 1).val) 0#32)) 0#32) = 1#1
/-- It holds at the first of every nine points. -/
theorem hcond0_0 : ∀ t : Fin cfg0.N, cond0_0 (grid0.coords t) ↔ t.val % 9 = 0 :=
  (by decide +kernel : ∀ t : Fin grid0.N, cond0_0 (grid0.coords t) ↔ t.val % 9 = 0)

/-! ## The staging memrefs at a point -/

/-- One staging buffer of the output window, through which its contents are stated. -/
abbrev VO0_7 : View sig .tc .vmem S1x40x384 .f32 := (Memref.whole cc0_stg7_0 : Memref sig .tc .vmem S1x40x384 .f32).view
abbrev ms0_0 (t : Fin cfg0.N) : Memref sig .tc .vmem S1x360x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x40x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x40x384 .f32 := win0_7.stage (cfg0.slots t 7)
abbrev hs0_7 (t : Fin cfg0.N) : (ms0_7 t).IsWhole := hstage0_7 ((cfg0.slots t 7).cast nbuf0_7)
/-- The scratch that carries the padded sender projection between the points of a batch. -/
abbrev scM0_0 : Memref sig .tc .vmem S384x128 .f32 := Memref.whole cc0_scratch0
abbrev VS0_0 : View sig .tc .vmem S384x128 .f32 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KB.RunA.lean ====
/-
  The kernel body run at the first tile of a batch (the tile coordinate is zero). There the body computes the
  sender projection of the whole batch, stores it into rows 0..359 of the scratch, stores zeros into rows
  360..383, then loads the scratch whole, computes the receiver projection of the tile and the scores against
  every row of the scratch, and stores the scores into the output block. The run shows that on whole staging
  memrefs, the inputs at their contents and the output and the scratch at anything, the body reaches its
  continuation with the inputs as they were and the output and the scratch holding the pieces it stored; the
  pieces are found by the run.
-/
import proofs.«143059_j28613072126235_2_alg».proof.Proof.KB.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at a first tile: the pieces the output block and the scratch end with, and the body's triple. -/
noncomputable def kernelRun0_A (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) :
    Σ' (L7 : List (View.Piece (Elt F) S1x40x384 .f32)), { LS0 : List (View.Piece (Elt F) S384x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Hand

end
-- ==== Proof.KB.RunB.lean ====
/-
  The kernel body run at a later tile of a batch (the tile coordinate is not zero). There the body leaves the
  scratch as the first tile of the batch filled it, loads it whole, computes the receiver projection of the tile
  and the scores against every row of the scratch, and stores the scores into the output block. The run shows
  that on whole staging memrefs, the inputs and the scratch at their contents and the output at anything, the
  body reaches its continuation with the inputs and the scratch as they were and the output holding the piece it
  stored.
-/
import proofs.«143059_j28613072126235_2_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at a later tile: the piece the output block ends with, and the body's triple. -/
noncomputable def kernelRun0_B (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : ¬cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) (xs0 : Vec F S384x128 .f32) :
    { L7 : List (View.Piece (Elt F) S1x40x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; isplitr; · ipureintro; exact harg10.read_unread _
    iexact HS0

end Cert.Kernel.Hand

end
-- ==== Proof.KB.Data.lean ====
/-
  What the output block and the scratch hold after the body at every grid point, the pipeline's proof data, and
  the body obligation.

  The grid runs over (batch, tile), nine tiles per batch. At the first tile of a batch the body fills the scratch
  (the sender projection of the batch in rows 0..359, zeros in rows 360..383) and stores the tile's scores; at a
  later tile it stores the tile's scores computed against the scratch as the first tile left it. So the scratch's
  contents after a point are defined by recursion on the point: what the first-tile run leaves at a first tile,
  what the previous point left otherwise. The region's invariant holds the scratch at those contents between
  points (at anything before the first point).
-/
import proofs.«143059_j28613072126235_2_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first-tile run's pieces for the output block tile it. -/
theorem cover0_A_7 (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) (y : S1x40x384.Idx) :
    ∃ pc ∈ (kernelRun0_A c i arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5 x6).1 S1x40x384.size (by sl_kernel_rfl) y

/-- What the first-tile run leaves in the output block: its pieces read back. -/
def out0_A_7 (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) : Vec F S1x40x384 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4 x5 x6).1)

/-- The first-tile run's pieces for the scratch tile it: rows 0..359 and rows 360..383. -/
theorem scover0_A_0 (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) (y : S384x128.Idx) :
    ∃ pc ∈ (kernelRun0_A c i arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledBy (kernelRun0_A c i arg2 harg2 arg3 harg3 arg4 harg4 arg5 harg5 arg6 harg6 arg7 harg7 arg8 harg8 arg9 harg9 arg10 harg10 hc0 x0 x1 x2 x3 x4 x5 x6).2.1 ![24, 128] (by sl_kernel_rfl) y

/-- What the first-tile run leaves in the scratch: its pieces read back. -/
def sout0_A_0 (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) : Vec F S384x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 x0 x1 x2 x3 x4 x5 x6).2.1)

/-- The later-tile run's piece for the output block tiles it. -/
theorem cover0_B_7 (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : ¬cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) (xs0 : Vec F S384x128 .f32) (y : S1x40x384.Idx) :
    ∃ pc ∈ (kernelRun0_B c i arg2 harg2 arg3 harg3 arg4 harg4 arg5 harg5 arg6 harg6 arg7 harg7 arg8 harg8 arg9 harg9 arg10 harg10 hc0 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 x6 xs0).1 S1x40x384.size (by sl_kernel_rfl) y

/-- What the later-tile run leaves in the output block: its piece read back. -/
def out0_B_7 (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : ¬cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) (xs0 : Vec F S384x128 .f32) : Vec F S1x40x384 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 x0 x1 x2 x3 x4 x5 x6 xs0).1)

/-! ## What the output block and the scratch hold after each point -/

/-- After the body at position `n`: the output block, and the scratch. -/
def outsAt0 (c : Dev nD) : (n : ℕ) → n < cfg0.N → Vec F S1x40x384 .f32 × Vec F S384x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 9 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2,
        (outsAt0 c n (Nat.lt_of_succ_lt hn)).2)

/-- At a first tile: what the first-tile run leaves. -/
theorem outsAt0_A (c : Dev nD) (t : Fin cfg0.N) (h0 : t.val % 9 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- At a later tile: what the later-tile run leaves over the scratch as the point before left it; the scratch
    unchanged. -/
theorem outsAt0_B (c : Dev nD) (t : Fin cfg0.N) (h0 : ¬t.val % 9 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the scratch at anything; afterwards the
    scratch at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The two windows on the embeddings array each hold half of it; every other input window holds its array whole. -/
def qOf : Fin cfg0.W → PosShare TreeShare
  | ⟨0, _⟩ => fullShare.left
  | ⟨1, _⟩ => fullShare.right
  | _ => fullShare

/-- The proof data: the arrays as the region finds them; after the body each input's buffer at its block and the
    output's at `outsAt0`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q := qOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' memrefs hold their blocks; at a first tile the first-tile run applies with the
    scratch at anything, at a later tile the later-tile run with the scratch at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  have hN : t.val < 72 := lt_of_lt_of_eq t.isLt (show cfg0.N = 72 from N_0)
  by_cases h0 : t.val % 9 = 0
  · rw [outsAt0_A m c t h0]
    unfold out0_A_7 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      iintro ⟨H0, H1, H2, H3, H4, H5, H6, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _)
  · rw [outsAt0_B m c t h0]
    unfold out0_B_7; (try dsimp only)
    have hz : t.val ≠ 0 := fun h => h0 (by rw [h])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back at some contents. -/
theorem hout (c : Dev nD) : (dats m 0 c).Φ (Fin.last cfg0.N) ⊢ Pipeline.ΦA spec0 c := by
  have ht : (Fin.last cfg0.N).val ≠ 0 := by rw [Fin.val_last]; have : cfg0.N = 72 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

end Cert.Kernel.Hand

end
-- ==== Proof.KB.Launch.lean ====
/-
  The launch. The kernel is handed the embeddings array through two windows (the batch's whole slab, for the
  sender projection, and the tile's rows, for the receiver projection), so the array's full share is dealt to
  them by halves; every other array is held whole. The region runs between the six host operations before it and
  the two after it (the slice that drops the padding columns and the reshape to a trailing axis of extent one);
  those two read the padded result where the pipeline wrote it back and write two buffers that bypass the region.
  The run's post names the result buffer's contents and says the five arguments are unchanged.
-/
import proofs.«143059_j28613072126235_2_alg».proof.Proof.KB.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window -/

/-- The distinct arrays behind the eight windows. -/
theorem arrImage_eq : Finset.univ.image (Pipeline.arrRef spec0)
    = ([main_arg0, main_v1, main_v3, main_v4, main_arg3, main_v5, main_v6] : List (Ref sig .tc)).toFinset := by decide

/-- The pipeline's arrays one by one: the two windows on the embeddings hold a half each. -/
theorem arrays_chain (c : Dev nD) (Fw : (w : Fin cfg0.W) → Buf (Elt F) ((cfg0.win w).arr.view.loc (c : Thread nD τ))) :
    ((dats m 0 c).arrays Fw : sProp 𝕄) = iprop(
      (((c : Thread nD τ).loc main_arg0) ↦{fullShare.left} Fw 0) ∗ (((c : Thread nD τ).loc main_arg0) ↦{fullShare.right} Fw 1)
      ∗ (((c : Thread nD τ).loc main_v1) ↦{fullShare} Fw 2) ∗ (((c : Thread nD τ).loc main_v3) ↦{fullShare} Fw 3)
      ∗ (((c : Thread nD τ).loc main_v4) ↦{fullShare} Fw 4) ∗ (((c : Thread nD τ).loc main_arg3) ↦{fullShare} Fw 5)
      ∗ (((c : Thread nD τ).loc main_v5) ↦{fullShare} Fw 6) ∗ (((c : Thread nD τ).loc main_v6) ↦{fullShare} Fw 7)) := by
  have h : ((dats m 0 c).arrays Fw : sProp 𝕄)
      = bigSep Finset.univ fun w => ((((c : Thread nD τ).loc (Pipeline.arrRef spec0 w)) ↦{(dats m 0 c).share w} Fw w : sProp 𝕄)) := by
    unfold Dat.arrays
    exact bigSep_congr fun w _ => by rw [(arr_whole0 w).set_eq_univ]
  rw [h, bigSep_W0]; rfl

/-- The arrays' buffers, each whole, make the pipeline's arrays at entry: the embeddings' full share splits in two. -/
theorem hsplit (c : Dev nD) : (Pipeline.arrBufs spec0 c (V m c) : sProp 𝕄) ⊢ (dats m 0 c).arrays ((dats m 0 c).arrAt · 0) := by
  rw [arrays_chain]
  unfold Pipeline.arrBufs
  rw [bigSep_eq_bigSepL_of_eq _ arrImage_eq (by decide)]
  show iprop((((c : Thread nD τ).loc main_arg0) ↦{fullShare} V m c main_arg0) ∗ (((c : Thread nD τ).loc main_v1) ↦{fullShare} V m c main_v1)
    ∗ (((c : Thread nD τ).loc main_v3) ↦{fullShare} V m c main_v3) ∗ (((c : Thread nD τ).loc main_v4) ↦{fullShare} V m c main_v4)
    ∗ (((c : Thread nD τ).loc main_arg3) ↦{fullShare} V m c main_arg3) ∗ (((c : Thread nD τ).loc main_v5) ↦{fullShare} V m c main_v5)
    ∗ (((c : Thread nD τ).loc main_v6) ↦{fullShare} V m c main_v6)) ⊢ _
  iintro ⟨H0, H1, H3, H4, HA3, H5, H6⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H3]; · iexact H3
  isplitl [H4]; · iexact H4
  isplitl [HA3]; · iexact HA3
  isplitl [H5]; · iexact H5
  iexact H6

/-! ## The lines after the region -/

/-- The buffers the two lines after the region touch: the padded result, the sliced result, the final result. -/
abbrev tailSet : Finset (DevRef τ sig) := {Proc.devRef .tc main_v6, Proc.devRef .tc main_v7, Proc.devRef .tc main_v8}

/-- The contents those lines start from: the padded result at what the pipeline wrote back, every other buffer as
    the region found it. -/
def Wt (c : Dev nD) : Valuation τ sig (Elt F) :=
  Function.update (V0 m c) (Proc.devRef .tc main_v6) ((dats m 0 c).arrAt 7 cfg0.N)

theorem Wt_v6 (c : Dev nD) : Wt m c (Proc.devRef .tc main_v6) = (dats m 0 c).arrAt 7 cfg0.N := by
  unfold Wt; exact Function.update_self ..
theorem Wt_v7 (c : Dev nD) : Wt m c (Proc.devRef .tc main_v7) = V m c main_v7 := by
  unfold Wt; exact Function.update_of_ne (by decide) ..
theorem Wt_v8 (c : Dev nD) : Wt m c (Proc.devRef .tc main_v8) = V m c main_v8 := by
  unfold Wt; exact Function.update_of_ne (by decide) ..

theorem held_tail (c : Dev nD) (W : Valuation τ sig (Elt F)) :
    (StableHlo.held (c : Thread nD τ) tailSet W : sProp 𝕄)
      = iprop((((c : Thread nD τ).loc main_v6) ↦{fullShare} W (Proc.devRef .tc main_v6)) ∗ (((c : Thread nD τ).loc main_v7) ↦{fullShare} W (Proc.devRef .tc main_v7))
          ∗ (((c : Thread nD τ).loc main_v8) ↦{fullShare} W (Proc.devRef .tc main_v8))) := by
  unfold StableHlo.held tailSet
  rw [BI.bigSep_insert (by decide), BI.bigSep_insert (by decide), BI.bigSep_singleton]
  rfl

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl
  · rw [StableHlo.unary_bufs]; decide
  · rw [StableHlo.reshape_bufs]; decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- No host operation before the region writes an argument. -/
theorem not_written0 (b : Ref sig .tc) (hb : b ≠ main_v0 ∧ b ≠ main_v1 ∧ b ≠ main_v2 ∧ b ≠ main_v3 ∧ b ≠ main_v4 ∧ b ≠ main_v5) :
    ∀ op ∈ (hostOps0 (F := F)), Proc.devRef .tc b ∉ op.writes := by
  obtain ⟨h0, h1, h2, h3, h4, h5⟩ := hb
  intro op hop
  simp only [hostOps0, List.mem_cons, List.mem_nil_iff, or_false] at hop
  rcases hop with rfl | rfl | rfl | rfl | rfl | rfl <;>
    simp only [StableHlo.unary_writes, StableHlo.reshape_writes, Finset.mem_singleton] <;>
    exact StableHlo.devRef_ne_of_ne ‹_›

/-- Nor does one after it. -/
theorem not_written1 (b : Ref sig .tc) (hb : b ≠ main_v7 ∧ b ≠ main_v8) :
    ∀ op ∈ (hostOps1 (F := F)), Proc.devRef .tc b ∉ op.writes := by
  obtain ⟨h0, h1⟩ := hb
  intro op hop
  simp only [hostOps1, List.mem_cons, List.mem_nil_iff, or_false] at hop
  rcases hop with rfl | rfl <;>
    simp only [StableHlo.unary_writes, StableHlo.reshape_writes, Finset.mem_singleton] <;>
    exact StableHlo.devRef_ne_of_ne ‹_›

/-- An argument reaches the region as launched. -/
theorem V_arg (c : Dev nD) (b : Ref sig .tc) (hb : b ≠ main_v0 ∧ b ≠ main_v1 ∧ b ≠ main_v2 ∧ b ≠ main_v3 ∧ b ≠ main_v4 ∧ b ≠ main_v5) :
    V m c b = m ((c : Thread nD τ).loc b) :=
  StableHlo.after_of_forall_not_mem (b := Proc.devRef .tc b) (List.flatten [hostOps0]) (fun b => m (c, b))
    (by simpa only [List.flatten_cons, List.flatten_nil, List.append_nil] using not_written0 b hb)

/-- The padded result is still what the pipeline wrote back after the two lines. -/
theorem Wt_after_v6 (c : Dev nD) :
    StableHlo.after hostOps1 (Wt m c) (Proc.devRef .tc main_v6) = (dats m 0 c).arrAt 7 cfg0.N :=
  (StableHlo.after_of_forall_not_mem (b := Proc.devRef .tc main_v6) hostOps1 (Wt m c) (not_written1 main_v6 (by decide))).trans (Wt_v6 m c)

/-! ## The run -/

/-- The run's post: the result buffer at the two lines' result, the five arguments as launched. -/
def QC : PUnit × MemSt nD τ sig (Elt F) → Prop := fun r => ∀ c : Dev nD,
  r.2.mem ((c : Thread nD τ).loc main_v8) = StableHlo.after hostOps1 (Wt m c) (Proc.devRef .tc main_v8)
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)

/-- What bypasses the region, after the two lines: three arguments, two intermediate slices, and the two
    buffers the lines wrote. -/
def Zt (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_arg4) ↦{fullShare} V m c main_arg4) ∗ (((c : Thread nD τ).loc main_v0) ↦{fullShare} V m c main_v0)
    ∗ (((c : Thread nD τ).loc main_v2) ↦{fullShare} V m c main_v2)
    ∗ (((c : Thread nD τ).loc main_v7) ↦{fullShare} StableHlo.after hostOps1 (Wt m c) (Proc.devRef .tc main_v7))
    ∗ (((c : Thread nD τ).loc main_v8) ↦{fullShare} StableHlo.after hostOps1 (Wt m c) (Proc.devRef .tc main_v8)))

set_option backward.isDefEq.respectTransparency.types false in
/-- The two lines after the region, from the arrays as the pipeline left them and the bypassing buffers. -/
theorem htail (c : Dev nD) (Q' : PUnit → sProp 𝕄) :
    iprop((iprop((dats m 0 c).arrays ((dats m 0 c).arrAt · cfg0.N) ∗ Zt m c) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  rw [arrays_chain, Pipeline.unscopedRestP_none, unscopedRest0_eq]
  unfold Zt
  iintro ⟨Hk, Hb, ⟨A0, A1, A2, A3, A4, A5, A6, A7⟩, ⟨R1, R2, R4, Rv0, Rv2, Rv7, Rv8⟩⟩
  have hW := held_tail (F := F) c (Wt m c)
  rw [Wt_v6, Wt_v7, Wt_v8] at hW
  have hW' := held_tail (F := F) c (StableHlo.after hostOps1 (Wt m c))
  rw [Wt_after_v6] at hW'
  have hs := Pipeline.wp_seqs_then (fun q => (cfgs q).toPCfg (Val := Elt F)) defs₀ Variants.none c tailSet [] (K := Q')
    [hostOps1] tail_sub tail_fresh (Wt m c)
  rw [hW, List.flatten_cons, List.flatten_nil, List.append_nil, hW'] at hs
  iapply hs $$ [Hb A7 Rv7 Rv8]
  · isplitl [Hb]; · iexact Hb
    isplitl [A7]; · iexact A7
    isplitl [Rv7]; · iexact Rv7
    iexact Rv8
  iintro ⟨Hb, A7, Rv7, Rv8⟩
  rw [Pipeline.chain_nil, wp_pure]
  imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [R1]; · iexact R1
  isplitl [R2]; · iexact R2
  isplitl [R4]; · iexact R4
  isplitl [Rv0]; · iexact Rv0
  isplitl [Rv2]; · iexact Rv2
  isplitl [Rv7]; · iexact Rv7
  iexact Rv8

set_option backward.isDefEq.respectTransparency.types false in
/-- At the compiled mesh, from any memory with zero counters: every weakly fair execution of @main on the TensorCores
    terminates, nothing faulting, with the result buffer at the two lines' result of what the pipeline wrote back
    and the five arguments as launched. -/
theorem run_main : θ_run defs (onTc (τ := τ) (main (F := F))) ⟨m, fun _ => 0, ρ⟩ (QC m) := by
  classical
  exact Pipeline.θ_run_region_pf_tail (fun q => (cfgs q).toPCfg (Val := Elt F)) (fun q => (cfgs q).toPCfg_adm) (dats m) ()
    (by rw [Subsingleton.elim (fun q => (cfgs q).toPCfg_adm) fun q => (cfgs q).toPCfg_adm]; exact cellOf_inj) (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := Zt m)
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c : Thread nD τ).loc main_v8) = StableHlo.after hostOps1 (Wt m c) (Proc.devRef .tc main_v8)
      ∧ s.mem ((c : Thread nD τ).loc main_arg1) = V m c main_arg1
      ∧ s.mem ((c : Thread nD τ).loc main_arg2) = V m c main_arg2
      ∧ s.mem ((c : Thread nD τ).loc main_arg4) = V m c main_arg4)
    (hY := fun c s' => by
      unfold Zt
      iintro ⟨-, ⟨R1, R2, R4, -, -, -, Rv8⟩, HSI⟩
      icombine HSI R1 gives %h1
      icombine HSI R2 gives %h2
      icombine HSI R4 gives %h4
      icombine HSI Rv8 gives %h8
      imodintro
      isplitr; · ipureintro; exact ⟨Buf.eq_of_forall_mem_univ h8, Buf.eq_of_forall_mem_univ h1, Buf.eq_of_forall_mem_univ h2, Buf.eq_of_forall_mem_univ h4⟩
      iexact HSI)
    (hQ := fun s h c => ⟨(h c).2.2.1,
      ((h c).1 0).trans (((dats m 0 c).arrAt_in 0 rfl _).trans ((A_eq m c 0).trans (V_arg m c main_arg0 (by decide)))),
      (h c).2.2.2.1.trans (V_arg m c main_arg1 (by decide)),
      (h c).2.2.2.2.1.trans (V_arg m c main_arg2 (by decide)),
      ((h c).1 5).trans (((dats m 0 c).arrAt_in 5 rfl _).trans ((A_eq m c 5).trans (V_arg m c main_arg3 (by decide)))),
      (h c).2.2.2.2.2.trans (V_arg m c main_arg4 (by decide))⟩)

/-- The frame: every weakly fair execution terminates, nothing faulting, the five arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Hand

end
-- ==== Proof.KI.Defs.lean ====
/-
  What the runs of the kernel body share: the arrays as the region finds them (after the six host operations that
  slice and transpose the first layer's weight and reshape the two biases), each window's block at a grid point,
  the fact that an input window's staging buffer holds its block at every point, the one condition the body
  branches on (the tile coordinate is zero: the first tile of a batch, where the sender projection is computed
  and stored in the scratch), and the staging memrefs as the pipeline passes them.
-/
import proofs.«143059_j28613072126235_2_alg».proof.Proof.Gen.KernelIdeal.Launch
import proofs.«143059_j28613072126235_2_alg».proof.Proof.Gen.KernelIdeal.Skeleton
import proofs.«143059_j28613072126235_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is
    not fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is
    not fetched its block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is
    not fetched its block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is
    not fetched its block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is
    not fetched its block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where it is
    not fetched its block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: where it is
    not fetched its block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one condition: the tile coordinate is zero. -/
abbrev cond0_0 (i : grid0.Coords) : Prop := (Scalar.cmpi .ne (Scalar.extui (Scalar.cmpi .eq (BitVec.ofNat 32 (i 1).val) 0#32)) 0#32) = 1#1
/-- It holds at the first of every nine points. -/
theorem hcond0_0 : ∀ t : Fin cfg0.N, cond0_0 (grid0.coords t) ↔ t.val % 9 = 0 :=
  (by decide +kernel : ∀ t : Fin grid0.N, cond0_0 (grid0.coords t) ↔ t.val % 9 = 0)

/-! ## The staging memrefs at a point -/

/-- One staging buffer of the output window, through which its contents are stated. -/
abbrev VO0_7 : View sig .tc .vmem S1x40x384 .f32 := (Memref.whole cc0_stg7_0 : Memref sig .tc .vmem S1x40x384 .f32).view
abbrev ms0_0 (t : Fin cfg0.N) : Memref sig .tc .vmem S1x360x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x40x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x40x384 .f32 := win0_7.stage (cfg0.slots t 7)
abbrev hs0_7 (t : Fin cfg0.N) : (ms0_7 t).IsWhole := hstage0_7 ((cfg0.slots t 7).cast nbuf0_7)
/-- The scratch that carries the padded sender projection between the points of a batch. -/
abbrev scM0_0 : Memref sig .tc .vmem S384x128 .f32 := Memref.whole cc0_scratch0
abbrev VS0_0 : View sig .tc .vmem S384x128 .f32 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The kernel body run at the first tile of a batch (the tile coordinate is zero). There the body computes the
  sender projection of the whole batch, stores it into rows 0..359 of the scratch, stores zeros into rows
  360..383, then loads the scratch whole, computes the receiver projection of the tile and the scores against
  every row of the scratch, and stores the scores into the output block. The run shows that on whole staging
  memrefs, the inputs at their contents and the output and the scratch at anything, the body reaches its
  continuation with the inputs as they were and the output and the scratch holding the pieces it stored; the
  pieces are found by the run.
-/
import proofs.«143059_j28613072126235_2_alg».proof.Proof.KI.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at a first tile: the pieces the output block and the scratch end with, and the body's triple. -/
noncomputable def kernelRun0_A (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) :
    Σ' (L7 : List (View.Piece (Elt F) S1x40x384 .f32)), { LS0 : List (View.Piece (Elt F) S384x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.KI.RunB.lean ====
/-
  The kernel body run at a later tile of a batch (the tile coordinate is not zero). There the body leaves the
  scratch as the first tile of the batch filled it, loads it whole, computes the receiver projection of the tile
  and the scores against every row of the scratch, and stores the scores into the output block. The run shows
  that on whole staging memrefs, the inputs and the scratch at their contents and the output at anything, the
  body reaches its continuation with the inputs and the scratch as they were and the output holding the piece it
  stored.
-/
import proofs.«143059_j28613072126235_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run at a later tile: the piece the output block ends with, and the body's triple. -/
noncomputable def kernelRun0_B (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : ¬cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) (xs0 : Vec F S384x128 .f32) :
    { L7 : List (View.Piece (Elt F) S1x40x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; isplitr; · ipureintro; exact harg10.read_unread _
    iexact HS0

end Cert.KernelIdeal.Hand

end
-- ==== Proof.KI.Data.lean ====
/-
  What the output block and the scratch hold after the body at every grid point, the pipeline's proof data, and
  the body obligation.

  The grid runs over (batch, tile), nine tiles per batch. At the first tile of a batch the body fills the scratch
  (the sender projection of the batch in rows 0..359, zeros in rows 360..383) and stores the tile's scores; at a
  later tile it stores the tile's scores computed against the scratch as the first tile left it. So the scratch's
  contents after a point are defined by recursion on the point: what the first-tile run leaves at a first tile,
  what the previous point left otherwise. The region's invariant holds the scratch at those contents between
  points (at anything before the first point).
-/
import proofs.«143059_j28613072126235_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first-tile run's pieces for the output block tile it. -/
theorem cover0_A_7 (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) (y : S1x40x384.Idx) :
    ∃ pc ∈ (kernelRun0_A c i arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 hc0 x0 x1 x2 x3 x4 x5 x6).1 S1x40x384.size (by sl_kernel_rfl) y

/-- What the first-tile run leaves in the output block: its pieces read back. -/
def out0_A_7 (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) : Vec F S1x40x384 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 x0 x1 x2 x3 x4 x5 x6).1)

/-- The first-tile run's pieces for the scratch tile it: rows 0..359 and rows 360..383. -/
theorem scover0_A_0 (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) (y : S384x128.Idx) :
    ∃ pc ∈ (kernelRun0_A c i arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledBy (kernelRun0_A c i arg2 harg2 arg3 harg3 arg4 harg4 arg5 harg5 arg6 harg6 arg7 harg7 arg8 harg8 arg9 harg9 arg10 harg10 hc0 x0 x1 x2 x3 x4 x5 x6).2.1 ![24, 128] (by sl_kernel_rfl) y

/-- What the first-tile run leaves in the scratch: its pieces read back. -/
def sout0_A_0 (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) : Vec F S384x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 x0 x1 x2 x3 x4 x5 x6).2.1)

/-- The later-tile run's piece for the output block tiles it. -/
theorem cover0_B_7 (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : ¬cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) (xs0 : Vec F S384x128 .f32) (y : S1x40x384.Idx) :
    ∃ pc ∈ (kernelRun0_B c i arg2 harg2 arg3 harg3 arg4 harg4 arg5 harg5 arg6 harg6 arg7 harg7 arg8 harg8 arg9 harg9 arg10 harg10 hc0 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 hc0 x0 x1 x2 x3 x4 x5 x6 xs0).1 S1x40x384.size (by sl_kernel_rfl) y

/-- What the later-tile run leaves in the output block: its piece read back. -/
def out0_B_7 (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : ¬cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) (xs0 : Vec F S384x128 .f32) : Vec F S1x40x384 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 x0 x1 x2 x3 x4 x5 x6 xs0).1)

/-! ## What the output block and the scratch hold after each point -/

/-- After the body at position `n`: the output block, and the scratch. -/
def outsAt0 (c : Dev nD) : (n : ℕ) → n < cfg0.N → Vec F S1x40x384 .f32 × Vec F S384x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 9 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2,
        (outsAt0 c n (Nat.lt_of_succ_lt hn)).2)

/-- At a first tile: what the first-tile run leaves. -/
theorem outsAt0_A (c : Dev nD) (t : Fin cfg0.N) (h0 : t.val % 9 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- At a later tile: what the later-tile run leaves over the scratch as the point before left it; the scratch
    unchanged. -/
theorem outsAt0_B (c : Dev nD) (t : Fin cfg0.N) (h0 : ¬t.val % 9 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position `n`: before the first point the scratch at anything; afterwards the
    scratch at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The two windows on the embeddings array each hold half of it; every other input window holds its array whole. -/
def qOf : Fin cfg0.W → PosShare TreeShare
  | ⟨0, _⟩ => fullShare.left
  | ⟨1, _⟩ => fullShare.right
  | _ => fullShare

/-- The proof data: the arrays as the region finds them; after the body each input's buffer at its block and the
    output's at `outsAt0`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q := qOf
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' memrefs hold their blocks; at a first tile the first-tile run applies with the
    scratch at anything, at a later tile the later-tile run with the scratch at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  have hN : t.val < 72 := lt_of_lt_of_eq t.isLt (show cfg0.N = 72 from N_0)
  by_cases h0 : t.val % 9 = 0
  · rw [outsAt0_A m c t h0]
    unfold out0_A_7 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      iintro ⟨H0, H1, H2, H3, H4, H5, H6, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _)
  · rw [outsAt0_B m c t h0]
    unfold out0_B_7; (try dsimp only)
    have hz : t.val ≠ 0 := fun h => h0 (by rw [h])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    iintro ⟨H0, H1, H2, H3, H4, H5, H6, ⟨%e7, H7⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back at some contents. -/
theorem hout (c : Dev nD) : (dats m 0 c).Φ (Fin.last cfg0.N) ⊢ Pipeline.ΦA spec0 c := by
  have ht : (Fin.last cfg0.N).val ≠ 0 := by rw [Fin.val_last]; have : cfg0.N = 72 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

end Cert.KernelIdeal.Hand

end
-- ==== Proof.KI.Launch.lean ====
/-
  The launch. The kernel is handed the embeddings array through two windows (the batch's whole slab, for the
  sender projection, and the tile's rows, for the receiver projection), so the array's full share is dealt to
  them by halves; every other array is held whole. The region runs between the six host operations before it and
  the two after it (the slice that drops the padding columns and the reshape to a trailing axis of extent one);
  those two read the padded result where the pipeline wrote it back and write two buffers that bypass the region.
  The run's post names the result buffer's contents and says the five arguments are unchanged.
-/
import proofs.«143059_j28613072126235_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window -/

/-- The distinct arrays behind the eight windows. -/
theorem arrImage_eq : Finset.univ.image (Pipeline.arrRef spec0)
    = ([main_arg0, main_v1, main_v3, main_v4, main_arg3, main_v5, main_v6] : List (Ref sig .tc)).toFinset := by decide

/-- The pipeline's arrays one by one: the two windows on the embeddings hold a half each. -/
theorem arrays_chain (c : Dev nD) (Fw : (w : Fin cfg0.W) → Buf (Elt F) ((cfg0.win w).arr.view.loc (c : Thread nD τ))) :
    ((dats m 0 c).arrays Fw : sProp 𝕄) = iprop(
      (((c : Thread nD τ).loc main_arg0) ↦{fullShare.left} Fw 0) ∗ (((c : Thread nD τ).loc main_arg0) ↦{fullShare.right} Fw 1)
      ∗ (((c : Thread nD τ).loc main_v1) ↦{fullShare} Fw 2) ∗ (((c : Thread nD τ).loc main_v3) ↦{fullShare} Fw 3)
      ∗ (((c : Thread nD τ).loc main_v4) ↦{fullShare} Fw 4) ∗ (((c : Thread nD τ).loc main_arg3) ↦{fullShare} Fw 5)
      ∗ (((c : Thread nD τ).loc main_v5) ↦{fullShare} Fw 6) ∗ (((c : Thread nD τ).loc main_v6) ↦{fullShare} Fw 7)) := by
  have h : ((dats m 0 c).arrays Fw : sProp 𝕄)
      = bigSep Finset.univ fun w => ((((c : Thread nD τ).loc (Pipeline.arrRef spec0 w)) ↦{(dats m 0 c).share w} Fw w : sProp 𝕄)) := by
    unfold Dat.arrays
    exact bigSep_congr fun w _ => by rw [(arr_whole0 w).set_eq_univ]
  rw [h, bigSep_W0]; rfl

/-- The arrays' buffers, each whole, make the pipeline's arrays at entry: the embeddings' full share splits in two. -/
theorem hsplit (c : Dev nD) : (Pipeline.arrBufs spec0 c (V m c) : sProp 𝕄) ⊢ (dats m 0 c).arrays ((dats m 0 c).arrAt · 0) := by
  rw [arrays_chain]
  unfold Pipeline.arrBufs
  rw [bigSep_eq_bigSepL_of_eq _ arrImage_eq (by decide)]
  show iprop((((c : Thread nD τ).loc main_arg0) ↦{fullShare} V m c main_arg0) ∗ (((c : Thread nD τ).loc main_v1) ↦{fullShare} V m c main_v1)
    ∗ (((c : Thread nD τ).loc main_v3) ↦{fullShare} V m c main_v3) ∗ (((c : Thread nD τ).loc main_v4) ↦{fullShare} V m c main_v4)
    ∗ (((c : Thread nD τ).loc main_arg3) ↦{fullShare} V m c main_arg3) ∗ (((c : Thread nD τ).loc main_v5) ↦{fullShare} V m c main_v5)
    ∗ (((c : Thread nD τ).loc main_v6) ↦{fullShare} V m c main_v6)) ⊢ _
  iintro ⟨H0, H1, H3, H4, HA3, H5, H6⟩
  ihave H0' := (pointsTo_share (PosShare.mem_left_op_right fullShare)).1 $$ H0
  icases H0' with ⟨H0l, H0r⟩
  isplitl [H0l]; · iexact H0l
  isplitl [H0r]; · iexact H0r
  isplitl [H1]; · iexact H1
  isplitl [H3]; · iexact H3
  isplitl [H4]; · iexact H4
  isplitl [HA3]; · iexact HA3
  isplitl [H5]; · iexact H5
  iexact H6

/-! ## The lines after the region -/

/-- The buffers the two lines after the region touch: the padded result, the sliced result, the final result. -/
abbrev tailSet : Finset (DevRef τ sig) := {Proc.devRef .tc main_v6, Proc.devRef .tc main_v7, Proc.devRef .tc main_v8}

/-- The contents those lines start from: the padded result at what the pipeline wrote back, every other buffer as
    the region found it. -/
def Wt (c : Dev nD) : Valuation τ sig (Elt F) :=
  Function.update (V0 m c) (Proc.devRef .tc main_v6) ((dats m 0 c).arrAt 7 cfg0.N)

theorem Wt_v6 (c : Dev nD) : Wt m c (Proc.devRef .tc main_v6) = (dats m 0 c).arrAt 7 cfg0.N := by
  unfold Wt; exact Function.update_self ..
theorem Wt_v7 (c : Dev nD) : Wt m c (Proc.devRef .tc main_v7) = V m c main_v7 := by
  unfold Wt; exact Function.update_of_ne (by decide) ..
theorem Wt_v8 (c : Dev nD) : Wt m c (Proc.devRef .tc main_v8) = V m c main_v8 := by
  unfold Wt; exact Function.update_of_ne (by decide) ..

theorem held_tail (c : Dev nD) (W : Valuation τ sig (Elt F)) :
    (StableHlo.held (c : Thread nD τ) tailSet W : sProp 𝕄)
      = iprop((((c : Thread nD τ).loc main_v6) ↦{fullShare} W (Proc.devRef .tc main_v6)) ∗ (((c : Thread nD τ).loc main_v7) ↦{fullShare} W (Proc.devRef .tc main_v7))
          ∗ (((c : Thread nD τ).loc main_v8) ↦{fullShare} W (Proc.devRef .tc main_v8))) := by
  unfold StableHlo.held tailSet
  rw [BI.bigSep_insert (by decide), BI.bigSep_insert (by decide), BI.bigSep_singleton]
  rfl

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl
  · rw [StableHlo.unary_bufs]; decide
  · rw [StableHlo.reshape_bufs]; decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- No host operation before the region writes an argument. -/
theorem not_written0 (b : Ref sig .tc) (hb : b ≠ main_v0 ∧ b ≠ main_v1 ∧ b ≠ main_v2 ∧ b ≠ main_v3 ∧ b ≠ main_v4 ∧ b ≠ main_v5) :
    ∀ op ∈ (hostOps0 (F := F)), Proc.devRef .tc b ∉ op.writes := by
  obtain ⟨h0, h1, h2, h3, h4, h5⟩ := hb
  intro op hop
  simp only [hostOps0, List.mem_cons, List.mem_nil_iff, or_false] at hop
  rcases hop with rfl | rfl | rfl | rfl | rfl | rfl <;>
    simp only [StableHlo.unary_writes, StableHlo.reshape_writes, Finset.mem_singleton] <;>
    exact StableHlo.devRef_ne_of_ne ‹_›

/-- Nor does one after it. -/
theorem not_written1 (b : Ref sig .tc) (hb : b ≠ main_v7 ∧ b ≠ main_v8) :
    ∀ op ∈ (hostOps1 (F := F)), Proc.devRef .tc b ∉ op.writes := by
  obtain ⟨h0, h1⟩ := hb
  intro op hop
  simp only [hostOps1, List.mem_cons, List.mem_nil_iff, or_false] at hop
  rcases hop with rfl | rfl <;>
    simp only [StableHlo.unary_writes, StableHlo.reshape_writes, Finset.mem_singleton] <;>
    exact StableHlo.devRef_ne_of_ne ‹_›

/-- An argument reaches the region as launched. -/
theorem V_arg (c : Dev nD) (b : Ref sig .tc) (hb : b ≠ main_v0 ∧ b ≠ main_v1 ∧ b ≠ main_v2 ∧ b ≠ main_v3 ∧ b ≠ main_v4 ∧ b ≠ main_v5) :
    V m c b = m ((c : Thread nD τ).loc b) :=
  StableHlo.after_of_forall_not_mem (b := Proc.devRef .tc b) (List.flatten [hostOps0]) (fun b => m (c, b))
    (by simpa only [List.flatten_cons, List.flatten_nil, List.append_nil] using not_written0 b hb)

/-- The padded result is still what the pipeline wrote back after the two lines. -/
theorem Wt_after_v6 (c : Dev nD) :
    StableHlo.after hostOps1 (Wt m c) (Proc.devRef .tc main_v6) = (dats m 0 c).arrAt 7 cfg0.N :=
  (StableHlo.after_of_forall_not_mem (b := Proc.devRef .tc main_v6) hostOps1 (Wt m c) (not_written1 main_v6 (by decide))).trans (Wt_v6 m c)

/-! ## The run -/

/-- The run's post: the result buffer at the two lines' result, the five arguments as launched. -/
def QC : PUnit × MemSt nD τ sig (Elt F) → Prop := fun r => ∀ c : Dev nD,
  r.2.mem ((c : Thread nD τ).loc main_v8) = StableHlo.after hostOps1 (Wt m c) (Proc.devRef .tc main_v8)
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)

/-- What bypasses the region, after the two lines: three arguments, two intermediate slices, and the two
    buffers the lines wrote. -/
def Zt (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_arg4) ↦{fullShare} V m c main_arg4) ∗ (((c : Thread nD τ).loc main_v0) ↦{fullShare} V m c main_v0)
    ∗ (((c : Thread nD τ).loc main_v2) ↦{fullShare} V m c main_v2)
    ∗ (((c : Thread nD τ).loc main_v7) ↦{fullShare} StableHlo.after hostOps1 (Wt m c) (Proc.devRef .tc main_v7))
    ∗ (((c : Thread nD τ).loc main_v8) ↦{fullShare} StableHlo.after hostOps1 (Wt m c) (Proc.devRef .tc main_v8)))

set_option backward.isDefEq.respectTransparency.types false in
/-- The two lines after the region, from the arrays as the pipeline left them and the bypassing buffers. -/
theorem htail (c : Dev nD) (Q' : PUnit → sProp 𝕄) :
    iprop((iprop((dats m 0 c).arrays ((dats m 0 c).arrAt · cfg0.N) ∗ Zt m c) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  rw [arrays_chain, Pipeline.unscopedRestP_none, unscopedRest0_eq]
  unfold Zt
  iintro ⟨Hk, Hb, ⟨A0, A1, A2, A3, A4, A5, A6, A7⟩, ⟨R1, R2, R4, Rv0, Rv2, Rv7, Rv8⟩⟩
  have hW := held_tail (F := F) c (Wt m c)
  rw [Wt_v6, Wt_v7, Wt_v8] at hW
  have hW' := held_tail (F := F) c (StableHlo.after hostOps1 (Wt m c))
  rw [Wt_after_v6] at hW'
  have hs := Pipeline.wp_seqs_then (fun q => (cfgs q).toPCfg (Val := Elt F)) defs₀ Variants.none c tailSet [] (K := Q')
    [hostOps1] tail_sub tail_fresh (Wt m c)
  rw [hW, List.flatten_cons, List.flatten_nil, List.append_nil, hW'] at hs
  iapply hs $$ [Hb A7 Rv7 Rv8]
  · isplitl [Hb]; · iexact Hb
    isplitl [A7]; · iexact A7
    isplitl [Rv7]; · iexact Rv7
    iexact Rv8
  iintro ⟨Hb, A7, Rv7, Rv8⟩
  rw [Pipeline.chain_nil, wp_pure]
  imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [R1]; · iexact R1
  isplitl [R2]; · iexact R2
  isplitl [R4]; · iexact R4
  isplitl [Rv0]; · iexact Rv0
  isplitl [Rv2]; · iexact Rv2
  isplitl [Rv7]; · iexact Rv7
  iexact Rv8

set_option backward.isDefEq.respectTransparency.types false in
/-- At the compiled mesh, from any memory with zero counters: every weakly fair execution of @main on the TensorCores
    terminates, nothing faulting, with the result buffer at the two lines' result of what the pipeline wrote back
    and the five arguments as launched. -/
theorem run_main : θ_run defs (onTc (τ := τ) (main (F := F))) ⟨m, fun _ => 0, ρ⟩ (QC m) := by
  classical
  exact Pipeline.θ_run_region_pf_tail (fun q => (cfgs q).toPCfg (Val := Elt F)) (fun q => (cfgs q).toPCfg_adm) (dats m) ()
    (by rw [Subsingleton.elim (fun q => (cfgs q).toPCfg_adm) fun q => (cfgs q).toPCfg_adm]; exact cellOf_inj) (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := Zt m)
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c : Thread nD τ).loc main_v8) = StableHlo.after hostOps1 (Wt m c) (Proc.devRef .tc main_v8)
      ∧ s.mem ((c : Thread nD τ).loc main_arg1) = V m c main_arg1
      ∧ s.mem ((c : Thread nD τ).loc main_arg2) = V m c main_arg2
      ∧ s.mem ((c : Thread nD τ).loc main_arg4) = V m c main_arg4)
    (hY := fun c s' => by
      unfold Zt
      iintro ⟨-, ⟨R1, R2, R4, -, -, -, Rv8⟩, HSI⟩
      icombine HSI R1 gives %h1
      icombine HSI R2 gives %h2
      icombine HSI R4 gives %h4
      icombine HSI Rv8 gives %h8
      imodintro
      isplitr; · ipureintro; exact ⟨Buf.eq_of_forall_mem_univ h8, Buf.eq_of_forall_mem_univ h1, Buf.eq_of_forall_mem_univ h2, Buf.eq_of_forall_mem_univ h4⟩
      iexact HSI)
    (hQ := fun s h c => ⟨(h c).2.2.1,
      ((h c).1 0).trans (((dats m 0 c).arrAt_in 0 rfl _).trans ((A_eq m c 0).trans (V_arg m c main_arg0 (by decide)))),
      (h c).2.2.2.1.trans (V_arg m c main_arg1 (by decide)),
      (h c).2.2.2.2.1.trans (V_arg m c main_arg2 (by decide)),
      ((h c).1 5).trans (((dats m 0 c).arrAt_in 5 rfl _).trans ((A_eq m c 5).trans (V_arg m c main_arg3 (by decide)))),
      (h c).2.2.2.2.2.trans (V_arg m c main_arg4 (by decide))⟩)

/-- The frame: every weakly fair execution terminates, nothing faulting, the five arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Hand

end
-- ==== Proof.KI.Pieces.lean ====
/-
  What the body's runs leave in the output block and in the scratch, as the payloads' values.

  A later-tile run stores one piece, the whole output block: the scores computed from the scratch it found
  and the tile's blocks.  A first-tile run stores two pieces into the scratch (rows 0..359: the sender
  projection of the batch; rows 360..383: zeros), then loads the scratch whole (reading back exactly those
  two pieces) and stores the whole output block computed from it.  A load through the whole-shape rectangle
  at zero offsets reads the contents; a store through it leaves its payload; an index of the scratch below
  row 360 lies in the first piece only, an index from row 360 on in the second only.
-/
import proofs.«143059_j28613072126235_2_alg».proof.Proof.KI.Data
import Idealize.ShloMosaic.Lib.Pipeline.Value
import Idealize.ShloMosaic.Lib.ValueIdx

set_option maxRecDepth 16384

noncomputable section

namespace Cert.KernelIdeal.Pieces

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## The later-tile run: one piece, the whole output block -/

/-- The later-tile run leaves the scores of the tile against the scratch as it found it. -/
theorem out0_B_7_eq (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : ¬cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) (xs0 : Vec F S384x128 .f32) :
    out0_B_7 c i arg2 harg2 arg3 harg3 arg4 harg4 arg5 harg5 arg6 harg6 arg7 harg7 arg8 harg8 arg9 harg9 arg10 harg10 hc0 x0 x1 x2 x3 x4 x5 x6 xs0 = Gen.k0_pay3 xs0 x1 x3 x5 x6 := by
  unfold out0_B_7
  rw [View.read_writes_junk_eq_canon]
  unfold kernelRun0_B
  dsimp only
  rw [View.canon_unit_zero (S := S1x40x384) hz3]
  simp only [View.readAt_eq_ld, harg10.read_unread, harg3.read_unread, harg5.read_unread, harg7.read_unread, harg8.read_unread,
    View.ld_unit_zero (S := S384x128) hz2, View.ld_unit_zero (S := S1x40x128) hz3, View.ld_unit_zero (S := S128x128) hz2,
    View.ld_unit_zero (S := S1x128) hz2, View.ld_unit_zero (S := S1x1) hz2]

/-! ## The scratch after the first-tile run: two pieces -/

/-- The two pieces a first-tile run stores into the scratch, over any two payloads: last the zero rows,
    before them the projection rows. -/
abbrev scratchPieces (w1 : FVec F S360x128 .f32) (w2 : FVec F S24x128 .f32) : List (View.Piece (Elt F) S384x128 .f32) :=
  [⟨Rect.unit ![360, 0] S24x128.size inb_S384x128_S24x128_360_0, w2⟩,
   ⟨Rect.unit ![0, 0] S360x128.size inb_S384x128_S360x128_0_0, w1⟩]

/-- A row below 360 reads the first piece. -/
theorem scratchPieces_lo (w1 : FVec F S360x128 .f32) (w2 : FVec F S24x128 .f32) (j : Fin 360) (d : Fin 128) :
    View.canon (scratchPieces w1 w2) (ix2 (⟨j.val, by omega⟩ : Fin 384) d : S384x128.Idx) = w1 (ix2 j d) := by
  unfold scratchPieces
  rw [View.canon_cons_of_not_mem _ _ (by
    rw [Rect.mem_set_unit]
    intro h
    have h0 := (h 0).1
    have : (360 : Nat) ≤ j.val := h0
    omega)]
  have e : (Rect.unit (s := S384x128) ![0, 0] S360x128.size inb_S384x128_S360x128_0_0).emb (ix2 j d)
      = (ix2 (⟨j.val, by omega⟩ : Fin 384) d : S384x128.Idx) := funext fun a => Fin.ext (by
    match a with
    | ⟨0, _⟩ => show 0 + 1 * j.val = j.val; omega
    | ⟨1, _⟩ => show 0 + 1 * d.val = d.val; omega)
  rw [← e]
  exact View.canon_cons_emb (Val := Elt F) (e := .f32) (Rect.unit (s := S384x128) ![0, 0] S360x128.size inb_S384x128_S360x128_0_0) w1 [] (ix2 j d)

/-- A row from 360 on reads the second piece. -/
theorem scratchPieces_hi (w1 : FVec F S360x128 .f32) (w2 : FVec F S24x128 .f32) (j : Fin 24) (d : Fin 128) :
    View.canon (scratchPieces w1 w2) (ix2 (⟨360 + j.val, by omega⟩ : Fin 384) d : S384x128.Idx) = w2 (ix2 j d) := by
  unfold scratchPieces
  have e : (Rect.unit (s := S384x128) ![360, 0] S24x128.size inb_S384x128_S24x128_360_0).emb (ix2 j d)
      = (ix2 (⟨360 + j.val, by omega⟩ : Fin 384) d : S384x128.Idx) := funext fun a => Fin.ext (by
    match a with
    | ⟨0, _⟩ => show 360 + 1 * j.val = 360 + j.val; omega
    | ⟨1, _⟩ => show 0 + 1 * d.val = d.val; omega)
  rw [← e]
  exact View.canon_cons_emb (Val := Elt F) (e := .f32) (Rect.unit (s := S384x128) ![360, 0] S24x128.size inb_S384x128_S24x128_360_0) w2 _ (ix2 j d)

/-- The scratch after a first-tile run is its two pieces read back: the projection of the batch's block
    and the zero rows. -/
theorem sout0_A_0_eq (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) :
    sout0_A_0 c i arg2 harg2 arg3 harg3 arg4 harg4 arg5 harg5 arg6 harg6 arg7 harg7 arg8 harg8 arg9 harg9 arg10 harg10 hc0 x0 x1 x2 x3 x4 x5 x6 = View.canon (scratchPieces (Gen.k0_pay1 x0 x2 x4) (Gen.k0_pay2 (F := F))) := by
  unfold sout0_A_0
  rw [View.read_writes_junk_eq_canon]
  unfold kernelRun0_A
  dsimp only
  sl_unfold_words
  simp only [View.readAt_eq_ld, harg2.read_unread, harg4.read_unread, harg6.read_unread,
    View.ld_unit_zero (S := S1x360x128) hz3, View.ld_unit_zero (S := S128x128) hz2, View.ld_unit_zero (S := S1x128) hz2]

/-- Rows 0..359 of the scratch after a first-tile run: the sender projection. -/
theorem sout0_A_0_lo (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) (j : Fin 360) (d : Fin 128) :
    sout0_A_0 c i arg2 harg2 arg3 harg3 arg4 harg4 arg5 harg5 arg6 harg6 arg7 harg7 arg8 harg8 arg9 harg9 arg10 harg10 hc0 x0 x1 x2 x3 x4 x5 x6 (ix2 (⟨j.val, by omega⟩ : Fin 384) d : S384x128.Idx) = Gen.k0_pay1 x0 x2 x4 (ix2 j d) := by
  rw [sout0_A_0_eq]
  exact scratchPieces_lo _ _ j d

/-- Rows 360..383 of the scratch after a first-tile run: the zero rows. -/
theorem sout0_A_0_hi (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) (j : Fin 24) (d : Fin 128) :
    sout0_A_0 c i arg2 harg2 arg3 harg3 arg4 harg4 arg5 harg5 arg6 harg6 arg7 harg7 arg8 harg8 arg9 harg9 arg10 harg10 hc0 x0 x1 x2 x3 x4 x5 x6 (ix2 (⟨360 + j.val, by omega⟩ : Fin 384) d : S384x128.Idx) = Gen.k0_pay2 (F := F) (ix2 j d) := by
  rw [sout0_A_0_eq]
  exact scratchPieces_hi _ _ j d

/-! ## The first-tile run's output block -/

/-- A load of the whole shape after a list of stores reads what the stores left. -/
theorem readCov_whole {sg : RefSig} {κ : Kind} {sp : Space} {S : Shape} {e : EltTy} (v : View sg κ sp S e)
    (L : List (View.Piece (Elt F) S e)) {off : Fin S.rank → Nat} (h : off = fun _ => 0)
    (inb : ∀ a, off a + S.size a ≤ S.size a) :
    v.readCov L (Rect.unit off S.size inb).toLoadRect = View.canon L := by
  rw [View.readCov_eq_canon']
  exact View.ld_unit_zero h inb (View.canon L)

/-- The first-tile run leaves the scores of the tile against the scratch as the same run leaves it. -/
theorem out0_A_7_eq (c : Dev nD) (i : grid0.Coords) (arg2 : Memref sig .tc .vmem S1x360x128 .f32) (harg2 : arg2.IsWhole) (arg3 : Memref sig .tc .vmem S1x40x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x40x384 .f32) (harg9 : arg9.IsWhole) (arg10 : Memref sig .tc .vmem S384x128 .f32) (harg10 : arg10.IsWhole) (hc0 : cond0_0 i)
    (x0 : Vec F S1x360x128 .f32) (x1 : Vec F S1x40x128 .f32) (x2 : Vec F S128x128 .f32) (x3 : Vec F S128x128 .f32) (x4 : Vec F S1x128 .f32) (x5 : Vec F S1x128 .f32) (x6 : Vec F S1x1 .f32) :
    out0_A_7 c i arg2 harg2 arg3 harg3 arg4 harg4 arg5 harg5 arg6 harg6 arg7 harg7 arg8 harg8 arg9 harg9 arg10 harg10 hc0 x0 x1 x2 x3 x4 x5 x6 = Gen.k0_pay3 (sout0_A_0 c i arg2 harg2 arg3 harg3 arg4 harg4 arg5 harg5 arg6 harg6 arg7 harg7 arg8 harg8 arg9 harg9 arg10 harg10 hc0 x0 x1 x2 x3 x4 x5 x6) x1 x3 x5 x6 := by
  rw [sout0_A_0_eq]
  unfold out0_A_7
  rw [View.read_writes_junk_eq_canon]
  unfold kernelRun0_A
  dsimp only
  sl_unfold_words
  rw [View.canon_unit_zero (S := S1x40x384) hz3, readCov_whole (S := S384x128) _ _ hz2]
  simp only [View.readAt_eq_ld, harg2.read_unread, harg4.read_unread, harg6.read_unread,
    harg3.read_unread, harg5.read_unread, harg7.read_unread, harg8.read_unread,
    View.ld_unit_zero (S := S1x360x128) hz3, View.ld_unit_zero (S := S128x128) hz2, View.ld_unit_zero (S := S1x128) hz2,
    View.ld_unit_zero (S := S1x40x128) hz3, View.ld_unit_zero (S := S1x1) hz2]

end Cert.KernelIdeal.Pieces

end
-- ==== Proof.KI.Blocks.lean ====
/-
  Where the windows' blocks sit in their arrays.

  The grid has 8 batches times 9 tiles; point `t` is batch `t / 9`, tile `t % 9`.  A block's element
  with coordinate `y` sits in the window's array, on each axis, at block index times block size plus
  `y`.  So the first window's block is the batch's whole `[360,128]` slab, the second window's block
  is rows `40·(t % 9) … 40·(t % 9) + 39` of that slab, the five parameter windows read their whole
  arrays, and the output window's block is rows `40·(t % 9) …` of the batch's `[360,384]` slab.  Every
  index of the output array lies in exactly the block of point `9·batch + row / 40`.
-/
import proofs.«143059_j28613072126235_2_alg».proof.Proof.KI.Defs
import proofs.«143059_j28613072126235_2_alg».proof.Proof.Gen.KernelIdeal.Points
import Idealize.ShloMosaic.Lib.ValueIdx

set_option maxRecDepth 16384

noncomputable section

namespace Cert.KernelIdeal.Blocks

open Cert.KernelIdeal Cert.KernelIdeal.Gen Cert.KernelIdeal.Hand
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ)

/-! ## A grid point's batch and tile -/

/-- The batch of grid point `t`. -/
abbrev bt (t : Fin cfg0.N) : Fin 8 := ⟨t.val / 9, by have h := t.isLt; have hN : cfg0.N = 72 := N_0; omega⟩
/-- The tile of grid point `t`. -/
abbrev tl (t : Fin cfg0.N) : Fin 9 := ⟨t.val % 9, by omega⟩

/-- The printed index maps, decided once over the grid. -/
theorem idx_facts : ∀ t : Fin cfg0.N,
    (win0_0.index t (0 : Fin 3) = t.val / 9 ∧ win0_0.index t (1 : Fin 3) = 0 ∧ win0_0.index t (2 : Fin 3) = 0)
    ∧ (win0_1.index t (0 : Fin 3) = t.val / 9 ∧ win0_1.index t (1 : Fin 3) = t.val % 9 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = t.val / 9 ∧ win0_7.index t (1 : Fin 3) = t.val % 9 ∧ win0_7.index t (2 : Fin 3) = 0) :=
  (by decide +kernel : ∀ t : Fin grid0.N, _)

/-! ## The input windows' blocks at an index -/

/-- Window 0: the batch's whole slab. -/
theorem iblk0_apply (c : Dev nD) (t : Fin cfg0.N) (r : Fin 360) (f : Fin 128) :
    iblk m c 0 t (ix3 (0 : Fin 1) r f : S1x360x128.Idx) = V m c main_arg0 (ix3 (bt t) r f) := by
  obtain ⟨⟨e0, e1, e2⟩, -⟩ := idx_facts t
  show V m c main_arg0 (((cfg0.win 0).blk t).view.emb (ix3 (0 : Fin 1) r f : S1x360x128.Idx)) = V m c main_arg0 (ix3 (bt t) r f)
  refine congrArg (V m c main_arg0) (funext fun a => Fin.ext ?_)
  match a with
  | ⟨0, _⟩ => show win0_0.index t (0 : Fin 3) * 1 + 1 * 0 = t.val / 9; omega
  | ⟨1, _⟩ => show win0_0.index t (1 : Fin 3) * 360 + 1 * r.val = r.val; omega
  | ⟨2, _⟩ => show win0_0.index t (2 : Fin 3) * 128 + 1 * f.val = f.val; omega

/-- Window 1: the tile's forty rows of the batch's slab. -/
theorem iblk1_apply (c : Dev nD) (t : Fin cfg0.N) (r : Fin 40) (f : Fin 128) :
    iblk m c 1 t (ix3 (0 : Fin 1) r f : S1x40x128.Idx)
      = V m c main_arg0 (ix3 (bt t) (⟨40 * (t.val % 9) + r.val, by have := r.isLt; omega⟩ : Fin 360) f) := by
  obtain ⟨-, ⟨e0, e1, e2⟩, -⟩ := idx_facts t
  show V m c main_arg0 (((cfg0.win 1).blk t).view.emb (ix3 (0 : Fin 1) r f : S1x40x128.Idx))
    = V m c main_arg0 (ix3 (bt t) (⟨40 * (t.val % 9) + r.val, by have := r.isLt; omega⟩ : Fin 360) f)
  refine congrArg (V m c main_arg0) (funext fun a => Fin.ext ?_)
  match a with
  | ⟨0, _⟩ => show win0_1.index t (0 : Fin 3) * 1 + 1 * 0 = t.val / 9; omega
  | ⟨1, _⟩ => show win0_1.index t (1 : Fin 3) * 40 + 1 * r.val = 40 * (t.val % 9) + r.val; omega
  | ⟨2, _⟩ => show win0_1.index t (2 : Fin 3) * 128 + 1 * f.val = f.val; omega

/-- Window 2: the sender half of the first layer's weight, whole. -/
theorem iblk2_apply (c : Dev nD) (t : Fin cfg0.N) (f d : Fin 128) :
    iblk m c 2 t (ix2 f d : S128x128.Idx) = V m c main_v1 (ix2 f d) := by
  obtain ⟨-, -, ⟨e0, e1⟩, -⟩ := idx_facts t
  show V m c main_v1 (((cfg0.win 2).blk t).view.emb (ix2 f d : S128x128.Idx)) = V m c main_v1 (ix2 f d)
  refine congrArg (V m c main_v1) (funext fun a => Fin.ext ?_)
  match a with
  | ⟨0, _⟩ => show win0_2.index t (0 : Fin 2) * 128 + 1 * f.val = f.val; omega
  | ⟨1, _⟩ => show win0_2.index t (1 : Fin 2) * 128 + 1 * d.val = d.val; omega

/-- Window 3: the receiver half of the first layer's weight, whole. -/
theorem iblk3_apply (c : Dev nD) (t : Fin cfg0.N) (f d : Fin 128) :
    iblk m c 3 t (ix2 f d : S128x128.Idx) = V m c main_v3 (ix2 f d) := by
  obtain ⟨-, -, -, ⟨e0, e1⟩, -⟩ := idx_facts t
  show V m c main_v3 (((cfg0.win 3).blk t).view.emb (ix2 f d : S128x128.Idx)) = V m c main_v3 (ix2 f d)
  refine congrArg (V m c main_v3) (funext fun a => Fin.ext ?_)
  match a with
  | ⟨0, _⟩ => show win0_3.index t (0 : Fin 2) * 128 + 1 * f.val = f.val; omega
  | ⟨1, _⟩ => show win0_3.index t (1 : Fin 2) * 128 + 1 * d.val = d.val; omega

/-- Window 4: the first layer's bias as one row, whole. -/
theorem iblk4_apply (c : Dev nD) (t : Fin cfg0.N) (d : Fin 128) :
    iblk m c 4 t (ix2 (0 : Fin 1) d : S1x128.Idx) = V m c main_v4 (ix2 (0 : Fin 1) d) := by
  obtain ⟨-, -, -, -, ⟨e0, e1⟩, -⟩ := idx_facts t
  show V m c main_v4 (((cfg0.win 4).blk t).view.emb (ix2 (0 : Fin 1) d : S1x128.Idx)) = V m c main_v4 (ix2 (0 : Fin 1) d)
  refine congrArg (V m c main_v4) (funext fun a => Fin.ext ?_)
  match a with
  | ⟨0, _⟩ => show win0_4.index t (0 : Fin 2) * 1 + 1 * 0 = 0; omega
  | ⟨1, _⟩ => show win0_4.index t (1 : Fin 2) * 128 + 1 * d.val = d.val; omega

/-- Window 5: the second layer's weight row, whole. -/
theorem iblk5_apply (c : Dev nD) (t : Fin cfg0.N) (d : Fin 128) :
    iblk m c 5 t (ix2 (0 : Fin 1) d : S1x128.Idx) = V m c main_arg3 (ix2 (0 : Fin 1) d) := by
  obtain ⟨-, -, -, -, -, ⟨e0, e1⟩, -⟩ := idx_facts t
  show V m c main_arg3 (((cfg0.win 5).blk t).view.emb (ix2 (0 : Fin 1) d : S1x128.Idx)) = V m c main_arg3 (ix2 (0 : Fin 1) d)
  refine congrArg (V m c main_arg3) (funext fun a => Fin.ext ?_)
  match a with
  | ⟨0, _⟩ => show win0_5.index t (0 : Fin 2) * 1 + 1 * 0 = 0; omega
  | ⟨1, _⟩ => show win0_5.index t (1 : Fin 2) * 128 + 1 * d.val = d.val; omega

/-- Window 6: the second layer's bias, one entry. -/
theorem iblk6_apply (c : Dev nD) (t : Fin cfg0.N) :
    iblk m c 6 t (ix2 (0 : Fin 1) (0 : Fin 1) : S1x1.Idx) = V m c main_v5 (ix2 (0 : Fin 1) (0 : Fin 1)) := by
  obtain ⟨-, -, -, -, -, -, ⟨e0, e1⟩, -⟩ := idx_facts t
  show V m c main_v5 (((cfg0.win 6).blk t).view.emb (ix2 (0 : Fin 1) (0 : Fin 1) : S1x1.Idx)) = V m c main_v5 (ix2 (0 : Fin 1) (0 : Fin 1))
  refine congrArg (V m c main_v5) (funext fun a => Fin.ext ?_)
  match a with
  | ⟨0, _⟩ => show win0_6.index t (0 : Fin 2) * 1 + 1 * 0 = 0; omega
  | ⟨1, _⟩ => show win0_6.index t (1 : Fin 2) * 1 + 1 * 0 = 0; omega

/-! ## The output window's blocks -/

/-- Where entry `(r, j)` of point `t`'s output block sits in the output array. -/
theorem out_emb (t : Fin cfg0.N) (r : Fin 40) (j : Fin 384) :
    ((cfg0.win 7).blk t).view.emb (ix3 (0 : Fin 1) r j : S1x40x384.Idx)
      = (ix3 (bt t) (⟨40 * (t.val % 9) + r.val, by have := r.isLt; omega⟩ : Fin 360) j : S8x360x384.Idx) := by
  obtain ⟨-, -, -, -, -, -, -, e0, e1, e2⟩ := idx_facts t
  refine funext fun a => Fin.ext ?_
  match a with
  | ⟨0, _⟩ => show win0_7.index t (0 : Fin 3) * 1 + 1 * 0 = t.val / 9; omega
  | ⟨1, _⟩ => show win0_7.index t (1 : Fin 3) * 40 + 1 * r.val = 40 * (t.val % 9) + r.val; omega
  | ⟨2, _⟩ => show win0_7.index t (2 : Fin 3) * 384 + 1 * j.val = j.val; omega

/-- The grid point whose output block holds index `k` of the output array: batch `k 0`, tile `k 1 / 40`. -/
abbrev pt (k : S8x360x384.Idx) : Fin cfg0.N := ⟨9 * (k 0).val + (k 1).val / 40, by
  have h0 : (k 0).val < 8 := (k 0).isLt
  have h1 : (k 1).val < 360 := (k 1).isLt
  have hN : cfg0.N = 72 := N_0
  omega⟩

/-- Every index of the output array is the entry `(k 1 % 40, k 2)` of the block of its point. -/
theorem out_cover (k : S8x360x384.Idx) :
    ((cfg0.win 7).blk (pt k)).view.emb
        (ix3 (0 : Fin 1) (⟨(k 1).val % 40, by omega⟩ : Fin 40) (⟨(k 2).val, (k 2).isLt⟩ : Fin 384) : S1x40x384.Idx) = k := by
  have h0 : (k 0).val < 8 := (k 0).isLt
  have h1 : (k 1).val < 360 := (k 1).isLt
  obtain ⟨-, -, -, -, -, -, -, e0, e1, e2⟩ := idx_facts (pt k)
  have e0' : win0_7.index (pt k) (0 : Fin 3) = (9 * (k 0).val + (k 1).val / 40) / 9 := e0
  have e1' : win0_7.index (pt k) (1 : Fin 3) = (9 * (k 0).val + (k 1).val / 40) % 9 := e1
  refine funext fun a => Fin.ext ?_
  match a with
  | ⟨0, _⟩ => show win0_7.index (pt k) (0 : Fin 3) * 1 + 1 * 0 = (k 0).val; omega
  | ⟨1, _⟩ => show win0_7.index (pt k) (1 : Fin 3) * 40 + 1 * ((k 1).val % 40) = (k 1).val; omega
  | ⟨2, _⟩ => show win0_7.index (pt k) (2 : Fin 3) * 384 + 1 * (k 2).val = (k 2).val; omega

end Cert.KernelIdeal.Blocks

end
-- ==== Proof.Spec.lean ====
/-
  The value both programs compute, written once as a function of the five argument arrays over the
  extended reals.

  For a batch `b`, a receiver row `i` and a sender row `j` the edge score is

      score b i j = max (Σ_d max (recv b i d + send b j d) 0 · W2[0,d] + b2[0]) 0,
      recv b i d  = Σ_f x[b,i,f] · W1[d, 128 + f],
      send b j d  = Σ_f x[b,j,f] · W1[d, f] + b1[d].

  The first layer's weight acts on the concatenation (sender features, receiver features), so its
  contraction over 256 columns splits into the two contractions over 128 columns above; the bias may
  be added to either half because addition on the extended reals is commutative and associative.
  The zero of the two rectifiers is kept as the float word it is printed as.
-/
import Idealize.ShloMosaic.PureOps.Ideal
import Idealize.ShloMosaic.Lib.ValueIdx

noncomputable section

namespace Cert.Spec

open Idealize.ShloMosaic Idealize.ShloMosaic.ValueIdx
open scoped BigOperators

/-- The rectifiers' zero, as printed. -/
abbrev z : EReal := Ideal.ofBits .f32 0x00000000#32

/-- Column `f` of the sender half of the first layer's weight. -/
abbrev colS (f : Fin 128) : Fin 256 := ⟨f.val, by omega⟩
/-- Column `f` of the receiver half. -/
abbrev colR (f : Fin 128) : Fin 256 := ⟨128 + f.val, by omega⟩

/-- The receiver's projection: row `i` of batch `b` against the receiver half of the weight. -/
def recv (x : (⟨3, ![8, 360, 128]⟩ : Shape).Idx → EReal) (w1 : (⟨2, ![128, 256]⟩ : Shape).Idx → EReal)
    (b : Fin 8) (i : Fin 360) (d : Fin 128) : EReal :=
  ∑ f : Fin 128, x (ix3 b i f) * w1 (ix2 d (colR f))

/-- The sender's projection with the first layer's bias added: row `j` of batch `b` against the
    sender half of the weight. -/
def send (x : (⟨3, ![8, 360, 128]⟩ : Shape).Idx → EReal) (w1 : (⟨2, ![128, 256]⟩ : Shape).Idx → EReal)
    (b1 : (⟨1, ![128]⟩ : Shape).Idx → EReal) (b : Fin 8) (j : Fin 360) (d : Fin 128) : EReal :=
  (∑ f : Fin 128, x (ix3 b j f) * w1 (ix2 d (colS f))) + b1 (ix1 d)

/-- The score of the edge from sender `j` to receiver `i` in batch `b`. -/
def score (x : (⟨3, ![8, 360, 128]⟩ : Shape).Idx → EReal) (w1 : (⟨2, ![128, 256]⟩ : Shape).Idx → EReal)
    (b1 : (⟨1, ![128]⟩ : Shape).Idx → EReal) (w2 : (⟨2, ![1, 128]⟩ : Shape).Idx → EReal)
    (b2 : (⟨1, ![1]⟩ : Shape).Idx → EReal) (b : Fin 8) (i j : Fin 360) : EReal :=
  max ((∑ d : Fin 128, max (recv x w1 b i d + send x w1 b1 b j d) z * w2 (ix2 0 d)) + b2 (ix1 0)) z

/-- The whole result array: one score per (batch, receiver, sender), the last axis of extent one. -/
def G (x : (⟨3, ![8, 360, 128]⟩ : Shape).Idx → EReal) (w1 : (⟨2, ![128, 256]⟩ : Shape).Idx → EReal)
    (b1 : (⟨1, ![128]⟩ : Shape).Idx → EReal) (w2 : (⟨2, ![1, 128]⟩ : Shape).Idx → EReal)
    (b2 : (⟨1, ![1]⟩ : Shape).Idx → EReal) : (⟨4, ![8, 360, 360, 1]⟩ : Shape).Idx → EReal :=
  fun k => score x w1 b1 w2 b2 (k 0) (k 1) (k 2)

end Cert.Spec

end
-- ==== Proof.PayIdeal.lean ====
/-
  The three values the kernel body stores, read entry by entry over the extended reals.

  * The first store writes the sender projection: row `r`, column `d` is the contraction
    `Σ_f x[0,r,f] · w[f,d]` over the 128 features plus the bias `b[0,d]`.  The product goes into a
    zero accumulator, and adding zero on the extended reals changes nothing; narrowing to a
    sixteen-bit format is the identity there.
  * The second store writes the rectifiers' zero into the 24 padding rows.
  * The third store writes the scores of one tile: for receiver row `i` and sender row `j`,
    `max (Σ_d max (Σ_f x[0,i,f] · w[f,d] + s[j,d]) 0 · w2[0,d] + b2[0,0]) 0`.  The receiver projection
    `[40,128]` is read as `[40,1,128]` and repeated along the sender axis, the sender block
    `[384,128]` is read as `[1,384,128]` and repeated along the receiver axis, the second layer's row
    `[1,128]` is read as `[1,1,128]` and repeated along both, the lane axis is summed, and the
    `[40,384]` result is read as `[1,40,384]`.

  Each reshaping, each repetition, the lane sum and each matrix product is read at explicit
  coordinates in a lemma of its own; the three theorems chain them.
-/
import proofs.«143059_j28613072126235_2_alg».proof.Proof.Gen.KernelIdeal.Skeleton
import proofs.«143059_j28613072126235_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal
open scoped BigOperators

/-! ## Reshapings and repetitions at explicit coordinates -/

section Layout
variable {α : Type}

/-- `[40,128]` read as `[40,1,128]`: the middle axis has one coordinate. -/
theorem cast_40x128_40x1x128 (x : S40x128.Idx → α) (h : S40x128.ShapeCasts S40x1x128)
    (i : Fin 40) (u : Fin 1) (d : Fin 128) :
    shapeCast S40x1x128 x h (ix3 i u d) = x (ix2 i d) :=
  shapeCast_apply x h _ _ (by
    have hu : u.val = 0 := by omega
    rw [Shape.rowMajor_val_two, Shape.rowMajor_val_three]
    show i.val * 128 + d.val = (i.val * 1 + u.val) * 128 + d.val
    rw [hu, Nat.mul_one, Nat.add_zero])

/-- `[40,1,128]` repeated along the middle axis to `[40,384,128]`. -/
theorem bcast_40x1x128 (x : S40x1x128.Idx → α) (h : S40x1x128.Broadcasts S40x384x128)
    (i : Fin 40) (j : Fin 384) (d : Fin 128) :
    broadcastTo S40x384x128 x h (ix3 i j d) = x (ix3 i (0 : Fin 1) d) := by
  refine broadcastTo_apply x h (ix3 i j d) (ix3 i (0 : Fin 1) d) fun ax => ?_
  match ax with
  | ⟨0, _⟩ => show i.val = if (40 : Nat) = 1 then 0 else i.val; rw [if_neg (by decide)]
  | ⟨1, _⟩ => rfl
  | ⟨2, _⟩ => show d.val = if (128 : Nat) = 1 then 0 else d.val; rw [if_neg (by decide)]

/-- `[1,384,128]` repeated along the first axis to `[40,384,128]`. -/
theorem bcast_1x384x128 (x : S1x384x128.Idx → α) (h : S1x384x128.Broadcasts S40x384x128)
    (i : Fin 40) (j : Fin 384) (d : Fin 128) :
    broadcastTo S40x384x128 x h (ix3 i j d) = x (ix3 (0 : Fin 1) j d) := by
  refine broadcastTo_apply x h (ix3 i j d) (ix3 (0 : Fin 1) j d) fun ax => ?_
  match ax with
  | ⟨0, _⟩ => rfl
  | ⟨1, _⟩ => show j.val = if (384 : Nat) = 1 then 0 else j.val; rw [if_neg (by decide)]
  | ⟨2, _⟩ => show d.val = if (128 : Nat) = 1 then 0 else d.val; rw [if_neg (by decide)]

/-- `[1,1,128]` repeated along the first two axes to `[40,384,128]`. -/
theorem bcast_1x1x128 (x : S1x1x128.Idx → α) (h : S1x1x128.Broadcasts S40x384x128)
    (i : Fin 40) (j : Fin 384) (d : Fin 128) :
    broadcastTo S40x384x128 x h (ix3 i j d) = x (ix3 (0 : Fin 1) (0 : Fin 1) d) := by
  refine broadcastTo_apply x h (ix3 i j d) (ix3 (0 : Fin 1) (0 : Fin 1) d) fun ax => ?_
  match ax with
  | ⟨0, _⟩ => rfl
  | ⟨1, _⟩ => rfl
  | ⟨2, _⟩ => show d.val = if (128 : Nat) = 1 then 0 else d.val; rw [if_neg (by decide)]

/-- The one entry of a `[1,1]` array, extracted at position (0, 0). -/
theorem extract_1x1 (x : S1x1.Idx → α) (h : ∀ a, (![0, 0] : Fin 2 → Nat) a < S1x1.size a) :
    extractAt ![0, 0] x h = x (ix2 (0 : Fin 1) (0 : Fin 1)) := by
  unfold extractAt
  refine congrArg x (funext fun a => Fin.ext ?_)
  match a with
  | ⟨0, _⟩ => rfl
  | ⟨1, _⟩ => rfl

end Layout

/-! ## The lane sum -/

/-- The sum over the last axis of a `[40,384,128]` array, at `(i, j)`: the 128 entries of lane row `(i, j)`. -/
theorem laneSum (src : FVec Ideal S40x384x128 .f32) (h : S40x384x128.Reduces [2] S40x384) (hφ : FKind.Formats .f32)
    (hacc : (0x00000000#32 : BitVec 32) = 0x00000000#32) (i : Fin 40) (j : Fin 384) :
    multiReduction (F := Ideal) .add [2] S40x384 src 0x00000000#32 h hφ hacc (ix2 i j)
      = ∑ d : Fin 128, src (ix3 i j d) := by
  refine (Ideal.multiReduction_add_single src 0x00000000#32 h hφ hacc (ix2 i j)).trans ?_
  refine Finset.sum_congr rfl fun d _ => congrArg src (funext fun a => Fin.ext ?_)
  match a with
  | ⟨0, _⟩ => rfl
  | ⟨1, _⟩ => rfl
  | ⟨2, _⟩ => rfl

/-! ## The two matrix products into a zero accumulator -/

/-- The left operand's row coordinate is the output's row; -/
theorem mm360_lhs0 (i : S360x128.Idx) (q : dot_S360x128_S128x128_S360x128_1_0_0_1_n_n.contr.Idx) :
    (dot_S360x128_S128x128_S360x128_1_0_0_1_n_n.lhsIdx i q 0).val = (i 0).val := by
  unfold DotDims.lhsIdx
  rw [dif_neg (show ¬(0 : Fin S360x128.rank) ∈ dot_S360x128_S128x128_S360x128_1_0_0_1_n_n.lhsBatch by decide),
    dif_pos (show (0 : Fin S360x128.rank) ∈ dot_S360x128_S128x128_S360x128_1_0_0_1_n_n.lhsNonContracting by decide)]
  rfl
/-- the right operand's column coordinate is the output's column. -/
theorem mm360_rhs1 (i : S360x128.Idx) (q : dot_S360x128_S128x128_S360x128_1_0_0_1_n_n.contr.Idx) :
    (dot_S360x128_S128x128_S360x128_1_0_0_1_n_n.rhsIdx i q 1).val = (i 1).val := by
  unfold DotDims.rhsIdx
  rw [dif_neg (show ¬(1 : Fin S128x128.rank) ∈ dot_S360x128_S128x128_S360x128_1_0_0_1_n_n.rhsBatch by decide),
    dif_pos (show (1 : Fin S128x128.rank) ∈ dot_S360x128_S128x128_S360x128_1_0_0_1_n_n.rhsNonContracting by decide)]
  rfl

/-- `[360,128] · [128,128]` into zero, at `(r, d)`: the contraction over the 128 shared coordinates. -/
theorem mm360 {φ₁ φ₂ : FTy} (l : FVec Ideal S360x128 φ₁) (w : FVec Ideal S128x128 φ₂) (r : Fin 360) (d : Fin 128) :
    matmul (F := Ideal) dot_S360x128_S128x128_S360x128_1_0_0_1_n_n none l w
        (constant (F := Ideal) S360x128 .f32 0x00000000#32) (ix2 r d)
      = ∑ f : Fin 128, l (ix2 r f) * w (ix2 f d) := by
  refine (Ideal.matmul_constant_zero_apply dot_S360x128_S128x128_S360x128_1_0_0_1_n_n none l w (ix2 r d)).trans ?_
  rw [← Equiv.sum_comp (contrEquiv1 dot_S360x128_S128x128_S360x128_1_0_0_1_n_n 128 rfl rfl).symm]
  refine Finset.sum_congr rfl fun k _ => ?_
  have hk := contrEquiv1_symm_val dot_S360x128_S128x128_S360x128_1_0_0_1_n_n 128 rfl rfl k
  have el : dot_S360x128_S128x128_S360x128_1_0_0_1_n_n.lhsIdx (ix2 r d)
      ((contrEquiv1 dot_S360x128_S128x128_S360x128_1_0_0_1_n_n 128 rfl rfl).symm k) = ix2 r k :=
    funext fun a => Fin.ext (by
      match a with
      | ⟨0, _⟩ => exact mm360_lhs0 _ _
      | ⟨1, _⟩ => exact (dot_S360x128_S128x128_S360x128_1_0_0_1_n_n.lhsIdx_val_of_single rfl _ _).trans hk)
  have er : dot_S360x128_S128x128_S360x128_1_0_0_1_n_n.rhsIdx (ix2 r d)
      ((contrEquiv1 dot_S360x128_S128x128_S360x128_1_0_0_1_n_n 128 rfl rfl).symm k) = ix2 k d :=
    funext fun a => Fin.ext (by
      match a with
      | ⟨0, _⟩ => exact (dot_S360x128_S128x128_S360x128_1_0_0_1_n_n.rhsIdx_val_of_single rfl _ _).trans hk
      | ⟨1, _⟩ => exact mm360_rhs1 _ _)
  rw [el, er]

/-- The left operand's row coordinate is the output's row; -/
theorem mm40_lhs0 (i : S40x128.Idx) (q : dot_S40x128_S128x128_S40x128_1_0_0_1_n_n.contr.Idx) :
    (dot_S40x128_S128x128_S40x128_1_0_0_1_n_n.lhsIdx i q 0).val = (i 0).val := by
  unfold DotDims.lhsIdx
  rw [dif_neg (show ¬(0 : Fin S40x128.rank) ∈ dot_S40x128_S128x128_S40x128_1_0_0_1_n_n.lhsBatch by decide),
    dif_pos (show (0 : Fin S40x128.rank) ∈ dot_S40x128_S128x128_S40x128_1_0_0_1_n_n.lhsNonContracting by decide)]
  rfl
/-- the right operand's column coordinate is the output's column. -/
theorem mm40_rhs1 (i : S40x128.Idx) (q : dot_S40x128_S128x128_S40x128_1_0_0_1_n_n.contr.Idx) :
    (dot_S40x128_S128x128_S40x128_1_0_0_1_n_n.rhsIdx i q 1).val = (i 1).val := by
  unfold DotDims.rhsIdx
  rw [dif_neg (show ¬(1 : Fin S128x128.rank) ∈ dot_S40x128_S128x128_S40x128_1_0_0_1_n_n.rhsBatch by decide),
    dif_pos (show (1 : Fin S128x128.rank) ∈ dot_S40x128_S128x128_S40x128_1_0_0_1_n_n.rhsNonContracting by decide)]
  rfl

/-- `[40,128] · [128,128]` into zero, at `(i, d)`: the contraction over the 128 shared coordinates. -/
theorem mm40 {φ₁ φ₂ : FTy} (l : FVec Ideal S40x128 φ₁) (w : FVec Ideal S128x128 φ₂) (i : Fin 40) (d : Fin 128) :
    matmul (F := Ideal) dot_S40x128_S128x128_S40x128_1_0_0_1_n_n none l w
        (constant (F := Ideal) S40x128 .f32 0x00000000#32) (ix2 i d)
      = ∑ f : Fin 128, l (ix2 i f) * w (ix2 f d) := by
  refine (Ideal.matmul_constant_zero_apply dot_S40x128_S128x128_S40x128_1_0_0_1_n_n none l w (ix2 i d)).trans ?_
  rw [← Equiv.sum_comp (contrEquiv1 dot_S40x128_S128x128_S40x128_1_0_0_1_n_n 128 rfl rfl).symm]
  refine Finset.sum_congr rfl fun k _ => ?_
  have hk := contrEquiv1_symm_val dot_S40x128_S128x128_S40x128_1_0_0_1_n_n 128 rfl rfl k
  have el : dot_S40x128_S128x128_S40x128_1_0_0_1_n_n.lhsIdx (ix2 i d)
      ((contrEquiv1 dot_S40x128_S128x128_S40x128_1_0_0_1_n_n 128 rfl rfl).symm k) = ix2 i k :=
    funext fun a => Fin.ext (by
      match a with
      | ⟨0, _⟩ => exact mm40_lhs0 _ _
      | ⟨1, _⟩ => exact (dot_S40x128_S128x128_S40x128_1_0_0_1_n_n.lhsIdx_val_of_single rfl _ _).trans hk)
  have er : dot_S40x128_S128x128_S40x128_1_0_0_1_n_n.rhsIdx (ix2 i d)
      ((contrEquiv1 dot_S40x128_S128x128_S40x128_1_0_0_1_n_n 128 rfl rfl).symm k) = ix2 k d :=
    funext fun a => Fin.ext (by
      match a with
      | ⟨0, _⟩ => exact (dot_S40x128_S128x128_S40x128_1_0_0_1_n_n.rhsIdx_val_of_single rfl _ _).trans hk
      | ⟨1, _⟩ => exact mm40_rhs1 _ _)
  rw [el, er]

/-! ## The three stored values -/

/-- The sender projection: the contraction over the features plus the bias. -/
theorem pay1_apply (v33 : Vec Ideal S1x360x128 .f32) (v36 : Vec Ideal S128x128 .f32) (v40 : Vec Ideal S1x128 .f32)
    (r : Fin 360) (d : Fin 128) :
    Gen.k0_pay1 (F := Ideal) v33 v36 v40 (ix2 r d)
      = (∑ f : Fin 128, v33 (ix3 0 r f) * v36 (ix2 f d)) + v40 (ix2 0 d) := by
  unfold Gen.k0_pay1
  refine (congrFun (shapeCast_self _ _) (ix2 r d)).trans ?_
  refine congrArg₂ (· + ·) ?_ ?_
  · refine (mm360 _ _ r d).trans ?_
    refine Finset.sum_congr rfl fun f _ => congrArg₂ (· * ·) ?_ ?_
    · exact shapeCast_1ab_ab_apply v33 _ r f
    · exact congrFun (shapeCast_self v36 _) (ix2 f d)
  · refine (broadcastTo_1b_ab_apply _ _ r d).trans ?_
    exact congrFun (shapeCast_self v40 _) (ix2 0 d)

/-- The padding rows hold the rectifiers' zero. -/
theorem pay2_apply (r : Fin 24) (d : Fin 128) : Gen.k0_pay2 (F := Ideal) (ix2 r d) = Cert.Spec.z := by
  unfold Gen.k0_pay2
  exact congrFun (shapeCast_self _ _) (ix2 r d)

/-- The score of the edge from sender row `j` to receiver row `i` of the tile. -/
theorem pay3_apply (v3 : Vec Ideal S384x128 .f32) (v4 : Vec Ideal S1x40x128 .f32) (v7 : Vec Ideal S128x128 .f32)
    (v18 : Vec Ideal S1x128 .f32) (v23 : Vec Ideal S1x1 .f32) (i : Fin 40) (j : Fin 384) :
    Gen.k0_pay3 (F := Ideal) v3 v4 v7 v18 v23 (ix3 0 i j)
      = max ((∑ d : Fin 128, max ((∑ f : Fin 128, v4 (ix3 0 i f) * v7 (ix2 f d)) + v3 (ix2 j d)) Cert.Spec.z
          * v18 (ix2 0 d)) + v23 (ix2 0 0)) Cert.Spec.z := by
  unfold Gen.k0_pay3
  dsimp only
  refine (shapeCast_ab_1ab_apply _ _ 0 i j).trans ?_
  refine congrArg₂ max (congrArg₂ (· + ·) ?_ ?_) rfl
  · refine (laneSum _ _ _ _ i j).trans ?_
    refine Finset.sum_congr rfl fun d _ => ?_
    refine congrArg₂ (· * ·) (congrArg₂ max (congrArg₂ (· + ·) ?_ ?_) rfl) ?_
    · refine (bcast_40x1x128 _ _ i j d).trans ?_
      refine (cast_40x128_40x1x128 _ _ i 0 d).trans ?_
      refine (mm40 _ _ i d).trans ?_
      refine Finset.sum_congr rfl fun f _ => congrArg₂ (· * ·) ?_ ?_
      · exact shapeCast_1ab_ab_apply v4 _ i f
      · exact congrFun (shapeCast_self v7 _) (ix2 f d)
    · refine (bcast_1x384x128 _ _ i j d).trans ?_
      exact shapeCast_ab_1ab_apply v3 _ 0 j d
    · refine (bcast_1x1x128 _ _ i j d).trans ?_
      exact shapeCast_ab_1ab_apply v18 _ 0 0 d
  · refine (extract_1x1 _ _).trans ?_
    exact congrFun (shapeCast_self v23 _) (ix2 0 0)

end Cert.KernelIdeal.Pay

end
-- ==== Proof.HostGlue.lean ====
/-
  The host's layout operations around the kernel region, read at an index.

  Before the region: the first layer's weight W1 : [128, 256] is cut into its sender half (columns 0..127)
  and its receiver half (columns 128..255), each transposed, so entry (f, d) of a transposed half is
  W1[d, f] or W1[d, 128 + f]; the two biases are viewed as a row [1, 128] and as a [1, 1] array with the
  same entries.  After it: the padded [8, 360, 384] result is cut to its first 360 columns and viewed
  [8, 360, 360, 1].  None of these operations writes an argument array, and the two after the region do
  not write the region's result either.
-/
import proofs.«143059_j28613072126235_2_alg».proof.Proof.Gen.KernelIdeal.Launch
import proofs.«143059_j28613072126235_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Glue

open Cert.KernelIdeal Cert.KernelIdeal.Gen Idealize.ShloMosaic Idealize.ShloMosaic.TcCoe Idealize.ShloMosaic.ValueIdx
open Idealize.SL.Sem

variable {F : FTy → Type} [FloatOps F]

/-! ## What the operations before the region leave in each buffer, as one term -/

theorem v1_eq (W : Valuation τ sig (Elt F)) :
    StableHlo.after (hostOps0 (F := F)) W (Proc.devRef .tc main_v1)
      = transpose S128x128 [1, 0] (extractStridedSlice S128x128 ![0, 0] (W (Proc.devRef .tc main_arg1)) slices_S128x256_S128x128_0_0) transposes_S128x128_S128x128_1_0 := by
  after_results

theorem v3_eq (W : Valuation τ sig (Elt F)) :
    StableHlo.after (hostOps0 (F := F)) W (Proc.devRef .tc main_v3)
      = transpose S128x128 [1, 0] (extractStridedSlice S128x128 ![0, 128] (W (Proc.devRef .tc main_arg1)) slices_S128x256_S128x128_0_128) transposes_S128x128_S128x128_1_0 := by
  after_results

theorem v4_eq (W : Valuation τ sig (Elt F)) :
    StableHlo.after (hostOps0 (F := F)) W (Proc.devRef .tc main_v4)
      = shapeCast S1x128 (W (Proc.devRef .tc main_arg2)) shapeCasts_S128_S1x128 := by
  after_results
  rfl

theorem v5_eq (W : Valuation τ sig (Elt F)) :
    StableHlo.after (hostOps0 (F := F)) W (Proc.devRef .tc main_v5)
      = shapeCast S1x1 (W (Proc.devRef .tc main_arg4)) shapeCasts_S1_S1x1 := by
  after_results
  rfl

/-! ## The same, at an index -/

/-- Entry (f, d) of the transposed sender half is W1[d, f]. -/
theorem v1_apply (W : Valuation τ sig (Elt F)) (f d : Fin 128) :
    StableHlo.after (hostOps0 (F := F)) W (Proc.devRef .tc main_v1) (ix2 f d)
      = W (Proc.devRef .tc main_arg1) (ix2 d (Cert.Spec.colS f)) := by
  rw [v1_eq]
  refine (transpose_apply [1, 0] _ transposes_S128x128_S128x128_1_0 (ix2 f d) (ix2 d f) ?_).trans ?_
  · intro a
    match a with
    | ⟨0, _⟩ => rfl
    | ⟨1, _⟩ => rfl
  · refine extractStridedSlice_apply ![0, 0] _ slices_S128x256_S128x128_0_0 (ix2 d f) (ix2 d (Cert.Spec.colS f)) ?_
    intro a
    match a with
    | ⟨0, _⟩ => show d.val = 0 + d.val; omega
    | ⟨1, _⟩ => show f.val = 0 + f.val; omega

/-- Entry (f, d) of the transposed receiver half is W1[d, 128 + f]. -/
theorem v3_apply (W : Valuation τ sig (Elt F)) (f d : Fin 128) :
    StableHlo.after (hostOps0 (F := F)) W (Proc.devRef .tc main_v3) (ix2 f d)
      = W (Proc.devRef .tc main_arg1) (ix2 d (Cert.Spec.colR f)) := by
  rw [v3_eq]
  refine (transpose_apply [1, 0] _ transposes_S128x128_S128x128_1_0 (ix2 f d) (ix2 d f) ?_).trans ?_
  · intro a
    match a with
    | ⟨0, _⟩ => rfl
    | ⟨1, _⟩ => rfl
  · refine extractStridedSlice_apply ![0, 128] _ slices_S128x256_S128x128_0_128 (ix2 d f) (ix2 d (Cert.Spec.colR f)) ?_
    intro a
    match a with
    | ⟨0, _⟩ => show d.val = 0 + d.val; omega
    | ⟨1, _⟩ => show 128 + f.val = 128 + f.val; rfl

/-- The first bias as a row. -/
theorem v4_apply (W : Valuation τ sig (Elt F)) (d : Fin 128) :
    StableHlo.after (hostOps0 (F := F)) W (Proc.devRef .tc main_v4) (ix2 (0 : Fin 1) d)
      = W (Proc.devRef .tc main_arg2) (ix1 d) := by
  rw [v4_eq]
  refine shapeCast_apply _ shapeCasts_S128_S1x128 (ix2 (0 : Fin 1) d) (ix1 d) ?_
  rw [Shape.rowMajor_val_one, Shape.rowMajor_val_two]
  show d.val = 0 * 128 + d.val
  omega

/-- The second bias as a one-by-one array. -/
theorem v5_apply (W : Valuation τ sig (Elt F)) :
    StableHlo.after (hostOps0 (F := F)) W (Proc.devRef .tc main_v5) (ix2 (0 : Fin 1) (0 : Fin 1))
      = W (Proc.devRef .tc main_arg4) (ix1 (0 : Fin 1)) := by
  rw [v5_eq]
  refine shapeCast_apply _ shapeCasts_S1_S1x1 (ix2 (0 : Fin 1) (0 : Fin 1)) (ix1 (0 : Fin 1)) ?_
  rw [Shape.rowMajor_val_one, Shape.rowMajor_val_two]
  rfl

/-! ## The operations before the region write no argument -/

theorem not_written0 (r : Ref sig .tc)
    (hr : r ≠ main_v0 ∧ r ≠ main_v1 ∧ r ≠ main_v2 ∧ r ≠ main_v3 ∧ r ≠ main_v4 ∧ r ≠ main_v5) :
    ∀ op ∈ (hostOps0 (F := F)), Proc.devRef .tc r ∉ op.writes := by
  obtain ⟨h0, h1, h2, h3, h4, h5⟩ := hr
  intro op hop
  simp only [List.mem_cons, List.mem_nil_iff, or_false] at hop
  rcases hop with rfl | rfl | rfl | rfl | rfl | rfl <;>
    simp only [StableHlo.unary_writes, StableHlo.reshape_writes, Finset.mem_singleton] <;>
    exact StableHlo.devRef_ne_of_ne ‹_›

theorem arg0_kept0 (W : Valuation τ sig (Elt F)) :
    StableHlo.after (hostOps0 (F := F)) W (Proc.devRef .tc main_arg0) = W (Proc.devRef .tc main_arg0) :=
  StableHlo.after_of_forall_not_mem (b := Proc.devRef .tc main_arg0) hostOps0 W (not_written0 main_arg0 (by decide))
theorem arg1_kept0 (W : Valuation τ sig (Elt F)) :
    StableHlo.after (hostOps0 (F := F)) W (Proc.devRef .tc main_arg1) = W (Proc.devRef .tc main_arg1) :=
  StableHlo.after_of_forall_not_mem (b := Proc.devRef .tc main_arg1) hostOps0 W (not_written0 main_arg1 (by decide))
theorem arg2_kept0 (W : Valuation τ sig (Elt F)) :
    StableHlo.after (hostOps0 (F := F)) W (Proc.devRef .tc main_arg2) = W (Proc.devRef .tc main_arg2) :=
  StableHlo.after_of_forall_not_mem (b := Proc.devRef .tc main_arg2) hostOps0 W (not_written0 main_arg2 (by decide))
theorem arg3_kept0 (W : Valuation τ sig (Elt F)) :
    StableHlo.after (hostOps0 (F := F)) W (Proc.devRef .tc main_arg3) = W (Proc.devRef .tc main_arg3) :=
  StableHlo.after_of_forall_not_mem (b := Proc.devRef .tc main_arg3) hostOps0 W (not_written0 main_arg3 (by decide))
theorem arg4_kept0 (W : Valuation τ sig (Elt F)) :
    StableHlo.after (hostOps0 (F := F)) W (Proc.devRef .tc main_arg4) = W (Proc.devRef .tc main_arg4) :=
  StableHlo.after_of_forall_not_mem (b := Proc.devRef .tc main_arg4) hostOps0 W (not_written0 main_arg4 (by decide))

/-! ## The operations after the region -/

theorem v8_eq (W : Valuation τ sig (Elt F)) :
    StableHlo.after (hostOps1 (F := F)) W (Proc.devRef .tc main_v8)
      = shapeCast S8x360x360x1 (extractStridedSlice S8x360x360 ![0, 0, 0] (W (Proc.devRef .tc main_v6)) slices_S8x360x384_S8x360x360_0_0_0) shapeCasts_S8x360x360_S8x360x360x1 := by
  after_results
  rfl

/-- Entry (b, i, j, o) of the final result is entry (b, i, j) of the region's padded result. -/
theorem v8_apply (W : Valuation τ sig (Elt F)) (b : Fin 8) (i j : Fin 360) (o : Fin 1) :
    StableHlo.after (hostOps1 (F := F)) W (Proc.devRef .tc main_v8) (ix4 b i j o)
      = W (Proc.devRef .tc main_v6) (ix3 b i (⟨j.val, by omega⟩ : Fin 384)) := by
  rw [v8_eq]
  refine (shapeCast_apply _ shapeCasts_S8x360x360_S8x360x360x1 (ix4 b i j o) (ix3 b i j) ?_).trans ?_
  · rw [Shape.rowMajor_val_three, Shape.rowMajor_val_four]
    show (b.val * 360 + i.val) * 360 + j.val = ((b.val * 360 + i.val) * 360 + j.val) * 1 + o.val
    have := o.isLt
    omega
  · refine extractStridedSlice_apply ![0, 0, 0] _ slices_S8x360x384_S8x360x360_0_0_0 (ix3 b i j) (ix3 b i (⟨j.val, by omega⟩ : Fin 384)) ?_
    intro a
    match a with
    | ⟨0, _⟩ => show b.val = 0 + b.val; omega
    | ⟨1, _⟩ => show i.val = 0 + i.val; omega
    | ⟨2, _⟩ => show j.val = 0 + j.val; omega

theorem not_written1 (r : Ref sig .tc) (hr : r ≠ main_v7 ∧ r ≠ main_v8) :
    ∀ op ∈ (hostOps1 (F := F)), Proc.devRef .tc r ∉ op.writes := by
  obtain ⟨h0, h1⟩ := hr
  intro op hop
  simp only [List.mem_cons, List.mem_nil_iff, or_false] at hop
  rcases hop with rfl | rfl <;>
    simp only [StableHlo.unary_writes, StableHlo.reshape_writes, Finset.mem_singleton] <;>
    exact StableHlo.devRef_ne_of_ne ‹_›

theorem arg0_kept1 (W : Valuation τ sig (Elt F)) :
    StableHlo.after (hostOps1 (F := F)) W (Proc.devRef .tc main_arg0) = W (Proc.devRef .tc main_arg0) :=
  StableHlo.after_of_forall_not_mem (b := Proc.devRef .tc main_arg0) hostOps1 W (not_written1 main_arg0 (by decide))
theorem arg1_kept1 (W : Valuation τ sig (Elt F)) :
    StableHlo.after (hostOps1 (F := F)) W (Proc.devRef .tc main_arg1) = W (Proc.devRef .tc main_arg1) :=
  StableHlo.after_of_forall_not_mem (b := Proc.devRef .tc main_arg1) hostOps1 W (not_written1 main_arg1 (by decide))
theorem arg2_kept1 (W : Valuation τ sig (Elt F)) :
    StableHlo.after (hostOps1 (F := F)) W (Proc.devRef .tc main_arg2) = W (Proc.devRef .tc main_arg2) :=
  StableHlo.after_of_forall_not_mem (b := Proc.devRef .tc main_arg2) hostOps1 W (not_written1 main_arg2 (by decide))
theorem arg3_kept1 (W : Valuation τ sig (Elt F)) :
    StableHlo.after (hostOps1 (F := F)) W (Proc.devRef .tc main_arg3) = W (Proc.devRef .tc main_arg3) :=
  StableHlo.after_of_forall_not_mem (b := Proc.devRef .tc main_arg3) hostOps1 W (not_written1 main_arg3 (by decide))
theorem arg4_kept1 (W : Valuation τ sig (Elt F)) :
    StableHlo.after (hostOps1 (F := F)) W (Proc.devRef .tc main_arg4) = W (Proc.devRef .tc main_arg4) :=
  StableHlo.after_of_forall_not_mem (b := Proc.devRef .tc main_arg4) hostOps1 W (not_written1 main_arg4 (by decide))
theorem v6_kept1 (W : Valuation τ sig (Elt F)) :
    StableHlo.after (hostOps1 (F := F)) W (Proc.devRef .tc main_v6) = W (Proc.devRef .tc main_v6) :=
  StableHlo.after_of_forall_not_mem (b := Proc.devRef .tc main_v6) hostOps1 W (not_written1 main_v6 (by decide))

end Cert.KernelIdeal.Glue

end
-- ==== Proof.KI.ArrAt.lean ====
/-
  The padded result array after the run, entry by entry.

  The output window's blocks tile the `[8,360,384]` array: the block of grid point `t` is rows
  `40·(t % 9) … 40·(t % 9) + 39` of batch `t / 9`, all 384 columns, and every point writes its block
  back.  So entry `k` of the array after the run is what the one point that covers it — batch `k 0`,
  tile `k 1 / 40` — left in its output block at row `k 1 % 40`, column `k 2`.  The proof names that
  whole-array function, shows that what each point writes back is its block of it (the point that
  covers an entry of point `t`'s block is `t` again), and that every entry is covered.
-/
import proofs.«143059_j28613072126235_2_alg».proof.Proof.KI.Data
import proofs.«143059_j28613072126235_2_alg».proof.Proof.KI.Blocks
import Idealize.ShloMosaic.Lib.Pipeline.Value

set_option maxRecDepth 16384

noncomputable section

namespace Cert.KernelIdeal.ArrAt

open Cert.KernelIdeal Cert.KernelIdeal.Gen Cert.KernelIdeal.Hand Cert.KernelIdeal.Blocks
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-- The whole padded array: at `k`, what the point covering `k` left in its output block at row
    `k 1 % 40`, column `k 2`. -/
def Gpad (c : Dev nD) (k : S8x360x384.Idx) : Elt F .f32 :=
  (outsAt0 m c (pt k).val (pt k).isLt).1
    (ix3 (0 : Fin 1) (⟨(k 1).val % 40, by omega⟩ : Fin 40) (⟨(k 2).val, (k 2).isLt⟩ : Fin 384) : S1x40x384.Idx)

/-- The point that covers entry `(r, j)` of point `t`'s block is `t`. -/
theorem pt_emb (t : Fin cfg0.N) (r : Fin 40) (j : Fin 384) :
    pt (((cfg0.win 7).blk t).view.emb (ix3 (0 : Fin 1) r j : S1x40x384.Idx)) = t := by
  rw [out_emb]
  apply Fin.ext
  show 9 * (t.val / 9) + (40 * (t.val % 9) + r.val) / 40 = t.val
  have := r.isLt
  omega

/-- The whole array at an entry whose point, row within the block and column are known. -/
theorem Gpad_eq (c : Dev nD) (k : S8x360x384.Idx) (t : Fin cfg0.N) (r : Fin 40) (j : Fin 384)
    (hp : pt k = t) (hr : (k 1).val % 40 = r.val) (hj : (k 2).val = j.val) :
    Gpad m c k = (outsAt0 m c t.val t.isLt).1 (ix3 (0 : Fin 1) r j : S1x40x384.Idx) := by
  subst hp
  unfold Gpad
  refine congrArg (outsAt0 m c (pt k).val (pt k).isLt).1 (funext fun a => Fin.ext ?_)
  match a with
  | ⟨0, _⟩ => rfl
  | ⟨1, _⟩ => exact hr
  | ⟨2, _⟩ => exact hj

/-- What each point's output block holds is its block of the whole array. -/
theorem Gpad_emb (c : Dev nD) (t : Fin cfg0.N) (u : Fin 1) (r : Fin 40) (j : Fin 384) :
    Gpad m c (((cfg0.win 7).blk t).view.emb (ix3 u r j : S1x40x384.Idx))
      = (outsAt0 m c t.val t.isLt).1 (ix3 u r j : S1x40x384.Idx) := by
  have hu : u = 0 := Subsingleton.elim _ _
  subst hu
  have h1 : ((((cfg0.win 7).blk t).view.emb (ix3 (0 : Fin 1) r j : S1x40x384.Idx)) 1).val = 40 * (t.val % 9) + r.val :=
    congrArg Fin.val (congrFun (out_emb t r j) 1)
  have h2 : ((((cfg0.win 7).blk t).view.emb (ix3 (0 : Fin 1) r j : S1x40x384.Idx)) 2).val = j.val :=
    congrArg Fin.val (congrFun (out_emb t r j) 2)
  refine Gpad_eq m c _ t r j (pt_emb t r j) ?_ h2
  rw [h1]
  have := r.isLt
  omega

/-- What point `t` writes back is its block of the whole array. -/
theorem flushed_eq (c : Dev nD) (t : Fin cfg0.N) :
    (dats m 0 c).flushed 7 t = ((cfg0.win 7).blk t).view.read (Elt F) (Gpad m c) := by
  show (cfg0.win 7).cut (grid0.coords t) ((dats m 0 c).after 7 t) = _
  rw [after0_7]
  funext y
  have hy : (y : S1x40x384.Idx) = ix3 (y 0) (y 1) (y 2) := eq_ix3 (n0 := 1) (n1 := 40) (n2 := 384) y
  show (outsAt0 m c t.val t.isLt).1 y = Gpad m c (((cfg0.win 7).blk t).view.emb y)
  exact (congrArg (outsAt0 m c t.val t.isLt).1 hy).trans
    ((Gpad_emb m c t (y 0) (y 1) (y 2)).symm.trans
      (congrArg (fun z : S1x40x384.Idx => Gpad m c (((cfg0.win 7).blk t).view.emb z)) hy.symm))

/-- Every entry of the array is in the block of its point, and every point writes its block back. -/
theorem covered (k : S8x360x384.Idx) :
    ∃ t : Fin cfg0.N, (cfg0.win 7).flush t = true ∧ k ∈ ((cfg0.win 7).blk t).view.set :=
  ⟨pt k, flush0_7 (pt k), by
    have h := ((cfg0.win 7).blk (pt k)).view.emb_mem_set
      (ix3 (0 : Fin 1) (⟨(k 1).val % 40, by omega⟩ : Fin 40) (⟨(k 2).val, (k 2).isLt⟩ : Fin 384) : S1x40x384.Idx)
    rw [out_cover k] at h
    exact h⟩

/-- The padded result array after the run is that whole-array function. -/
theorem arrAt_eq (c : Dev nD) : (dats m 0 c).arrAt 7 cfg0.N = Gpad m c :=
  (dats m 0 c).arrAt_eq_of_cover 7 (Gpad m c) (fun t _ => flushed_eq m c t) (fun k => covered k)

/-- Entry `k` of the padded result array after the run: what the point covering `k` left in its
    output block at row `k 1 % 40`, column `k 2`. -/
theorem arrAt_apply (c : Dev nD) (k : S8x360x384.Idx) :
    (dats m 0 c).arrAt 7 cfg0.N k
      = (outsAt0 m c (pt k).val (pt k).isLt).1
          (ix3 (0 : Fin 1) (⟨(k 1).val % 40, by omega⟩ : Fin 40) (⟨(k 2).val, (k 2).isLt⟩ : Fin 384) : S1x40x384.Idx) :=
  congrFun (arrAt_eq m c) k

end Cert.KernelIdeal.ArrAt

end
-- ==== Proof.KI.Final.lean ====
/-
  The result buffer is the specification, once each point's output block is known to hold the scores.

  The two host operations after the region cut the padded `[8,360,384]` array to its first 360 columns
  and view it `[8,360,360,1]`, so entry `(b, i, j, 0)` of the result is entry `(b, i, j)` of the padded
  array, which is what grid point `9·b + i / 40` left at row `i % 40`, column `j` of its output block.
  If every point's block holds, at row `r` and a column `j < 360`, the score of batch `t / 9`,
  receiver row `40·(t % 9) + r`, sender row `j`, then that entry is the score of `(b, i, j)`:
  `(9·b + i / 40) / 9 = b` and `40·((9·b + i / 40) % 9) + i % 40 = i`.
-/
import proofs.«143059_j28613072126235_2_alg».proof.Proof.KI.Launch
import proofs.«143059_j28613072126235_2_alg».proof.Proof.KI.ArrAt
import proofs.«143059_j28613072126235_2_alg».proof.Proof.KI.Blocks
import proofs.«143059_j28613072126235_2_alg».proof.Proof.HostGlue
import proofs.«143059_j28613072126235_2_alg».proof.Proof.Spec

set_option maxRecDepth 16384

noncomputable section

namespace Cert.KernelIdeal.Final

open Cert.KernelIdeal Cert.KernelIdeal.Gen Cert.KernelIdeal.Hand Cert.KernelIdeal.Blocks Cert.KernelIdeal.ArrAt
open Idealize.ShloMosaic Idealize.ShloMosaic.TcCoe Idealize.ShloMosaic.ValueIdx
open Idealize.SL Idealize.SL.Sem

variable (m : (ℓ : Loc nD τ sig) → Buf (Elt Ideal) ℓ)

/-- The embeddings, as launched. -/
abbrev a0 (c : Dev nD) : S8x360x128.Idx → EReal := m ((c : Thread nD τ).loc main_arg0)
/-- The first layer's weight, as launched. -/
abbrev a1 (c : Dev nD) : S128x256.Idx → EReal := m ((c : Thread nD τ).loc main_arg1)
/-- The first layer's bias, as launched. -/
abbrev a2 (c : Dev nD) : S128.Idx → EReal := m ((c : Thread nD τ).loc main_arg2)
/-- The second layer's weight row, as launched. -/
abbrev a3 (c : Dev nD) : S1x128.Idx → EReal := m ((c : Thread nD τ).loc main_arg3)
/-- The second layer's bias, as launched. -/
abbrev a4 (c : Dev nD) : S1.Idx → EReal := m ((c : Thread nD τ).loc main_arg4)

/-- The result buffer after the run is the specification's array, given that every point's output block holds
    the scores of its batch and rows at the columns below 360. -/
theorem result_eq (c : Dev nD)
    (hout : ∀ (t : Fin cfg0.N) (r : Fin 40) (j : Fin 360),
      (outsAt0 m c t.val t.isLt).1 (ix3 (0 : Fin 1) r (⟨j.val, by omega⟩ : Fin 384) : S1x40x384.Idx)
        = Cert.Spec.score (a0 m c) (a1 m c) (a2 m c) (a3 m c) (a4 m c) (bt t)
            (⟨40 * (t.val % 9) + r.val, by have := r.isLt; omega⟩ : Fin 360) j) :
    (StableHlo.after hostOps1 (Wt m c) (Proc.devRef .tc main_v8) : S8x360x360x1.Idx → EReal)
      = Cert.Spec.G (a0 m c) (a1 m c) (a2 m c) (a3 m c) (a4 m c) := by
  funext k
  obtain ⟨b, i, j, o, rfl⟩ : ∃ (b : Fin 8) (i j : Fin 360) (o : Fin 1), k = ix4 b i j o :=
    ⟨k 0, k 1, k 2, k 3, eq_ix4 k⟩
  have hb := b.isLt
  have hi := i.isLt
  refine (Glue.v8_apply (Wt m c) b i j o).trans ?_
  refine (congrFun (Wt_v6 m c) _).trans ?_
  refine (congrFun (arrAt_eq m c) _).trans ?_
  refine (Gpad_eq m c _
    (⟨9 * b.val + i.val / 40, by have hN : cfg0.N = 72 := N_0; omega⟩ : Fin cfg0.N)
    (⟨i.val % 40, by omega⟩ : Fin 40) (⟨j.val, by omega⟩ : Fin 384) (Fin.ext rfl) rfl rfl).trans ?_
  refine (hout (⟨9 * b.val + i.val / 40, by have hN : cfg0.N = 72 := N_0; omega⟩ : Fin cfg0.N)
    (⟨i.val % 40, by omega⟩ : Fin 40) j).trans ?_
  show Cert.Spec.score (a0 m c) (a1 m c) (a2 m c) (a3 m c) (a4 m c) _ _ j
    = Cert.Spec.score (a0 m c) (a1 m c) (a2 m c) (a3 m c) (a4 m c) b i j
  have e0 : bt (⟨9 * b.val + i.val / 40, by have hN : cfg0.N = 72 := N_0; omega⟩ : Fin cfg0.N) = b :=
    Fin.ext (by show (9 * b.val + i.val / 40) / 9 = b.val; omega)
  have e1 : (⟨40 * ((9 * b.val + i.val / 40) % 9) + i.val % 40, by omega⟩ : Fin 360) = i :=
    Fin.ext (by show 40 * ((9 * b.val + i.val / 40) % 9) + i.val % 40 = i.val; omega)
  exact congrArg₂ (fun x y => Cert.Spec.score (a0 m c) (a1 m c) (a2 m c) (a3 m c) (a4 m c) x y j) e0 e1

end Cert.KernelIdeal.Final

end
-- ==== Proof.KI.Value.lean ====
/-
  The idealized kernel's result is the specification.

  On the extended reals the scratch, after any grid point of batch `b`, holds in its first 360 rows the sender
  projection of the batch with the first layer's bias added (it is filled at the batch's first tile and kept
  until the next batch's first tile), and the output block written at tile `i` of batch `b` holds, at row `r` and
  column `j < 360`, the score of the edge from sender `j` to receiver `40·i + r`: the receiver's projection is
  the tile's rows against the receiver half of the weight, read through the transposed slice the host prepared.
-/
import proofs.«143059_j28613072126235_2_alg».proof.Proof.KI.Launch
import proofs.«143059_j28613072126235_2_alg».proof.Proof.KI.Pieces
import proofs.«143059_j28613072126235_2_alg».proof.Proof.KI.Blocks
import proofs.«143059_j28613072126235_2_alg».proof.Proof.PayIdeal
import proofs.«143059_j28613072126235_2_alg».proof.Proof.HostGlue
import proofs.«143059_j28613072126235_2_alg».proof.Proof.KI.Final
import proofs.«143059_j28613072126235_2_alg».proof.Proof.Spec

set_option maxRecDepth 16384

noncomputable section

namespace Cert.KernelIdeal.Val

open Cert.KernelIdeal Cert.KernelIdeal.Gen Cert.KernelIdeal.Hand Cert.KernelIdeal.Blocks Cert.KernelIdeal.Final
open Idealize.ShloMosaic Idealize.ShloMosaic.TcCoe Idealize.ShloMosaic.ValueIdx
open Idealize.SL Idealize.SL.Sem
open scoped BigOperators

variable (m : (ℓ : Loc nD τ sig) → Buf (Elt Ideal) ℓ)

/-! ## The arrays the region finds, read at an index -/

theorem V_a0 (c : Dev nD) (k : S8x360x128.Idx) : V m c main_arg0 k = a0 m c k :=
  congrFun (V_arg m c main_arg0 (by decide)) k
theorem V_a3 (c : Dev nD) (k : S1x128.Idx) : V m c main_arg3 k = a3 m c k :=
  congrFun (V_arg m c main_arg3 (by decide)) k
/-- The sender half of the weight, transposed. -/
theorem V_v1 (c : Dev nD) (f d : Fin 128) : V m c main_v1 (ix2 f d) = a1 m c (ix2 d (Cert.Spec.colS f)) :=
  Cert.KernelIdeal.Glue.v1_apply (fun b => m (c, b)) f d
/-- The receiver half of the weight, transposed. -/
theorem V_v3 (c : Dev nD) (f d : Fin 128) : V m c main_v3 (ix2 f d) = a1 m c (ix2 d (Cert.Spec.colR f)) :=
  Cert.KernelIdeal.Glue.v3_apply (fun b => m (c, b)) f d
/-- The first layer's bias as a row. -/
theorem V_v4 (c : Dev nD) (d : Fin 128) : V m c main_v4 (ix2 (0 : Fin 1) d) = a2 m c (ix1 d) :=
  Cert.KernelIdeal.Glue.v4_apply (fun b => m (c, b)) d
/-- The second layer's bias as a one-by-one array. -/
theorem V_v5 (c : Dev nD) : V m c main_v5 (ix2 (0 : Fin 1) (0 : Fin 1)) = a4 m c (ix1 (0 : Fin 1)) :=
  Cert.KernelIdeal.Glue.v5_apply (fun b => m (c, b))

/-! ## The two components after a point, case by case -/

theorem outs_A_fst (c : Dev nD) (t : Fin cfg0.N) (h0 : t.val % 9 = 0) :
    (outsAt0 m c t.val t.isLt).1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) := by
  rw [outsAt0_A m c t h0]
theorem outs_A_snd (c : Dev nD) (t : Fin cfg0.N) (h0 : t.val % 9 = 0) :
    (outsAt0 m c t.val t.isLt).2 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) := by
  rw [outsAt0_A m c t h0]
theorem outs_B_fst (c : Dev nD) (t : Fin cfg0.N) (h0 : ¬t.val % 9 = 0) :
    (outsAt0 m c t.val t.isLt).1 = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 := by
  rw [outsAt0_B m c t h0]
theorem outs_B_snd (c : Dev nD) (t : Fin cfg0.N) (h0 : ¬t.val % 9 = 0) :
    (outsAt0 m c t.val t.isLt).2 = (outsAt0 m c (t.val - 1) (Nat.lt_of_le_of_lt (Nat.sub_le _ _) t.isLt)).2 := by
  rw [outsAt0_B m c t h0]

/-! ## The scratch between points -/

/-- At the first tile of a batch the body leaves the batch's sender projection in the scratch's first 360 rows. -/
theorem first_tile (c : Dev nD) (t : Fin cfg0.N) (h0 : t.val % 9 = 0) (j : Fin 360) (d : Fin 128) :
    (outsAt0 m c t.val t.isLt).2 (ix2 (⟨j.val, by omega⟩ : Fin 384) d : S384x128.Idx)
      = Cert.Spec.send (a0 m c) (a1 m c) (a2 m c) (bt t) j d := by
  rw [outs_A_snd m c t h0]
  refine (Cert.KernelIdeal.Pieces.sout0_A_0_lo c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t) j d).trans ?_
  rw [Cert.KernelIdeal.Pay.pay1_apply]
  unfold Cert.Spec.send
  refine congrArg₂ (· + ·) ?_ ?_
  · exact Finset.sum_congr rfl fun f _ => by rw [iblk0_apply, iblk2_apply, V_a0, V_v1]
  · rw [iblk4_apply, V_v4]

/-- After every point of batch `b` the scratch's first 360 rows hold the batch's sender projection: a later tile
    leaves the scratch as it found it. -/
theorem scratch_inv (c : Dev nD) : ∀ (n : ℕ) (hn : n < cfg0.N) (j : Fin 360) (d : Fin 128),
    (outsAt0 m c n hn).2 (ix2 (⟨j.val, by omega⟩ : Fin 384) d : S384x128.Idx)
      = Cert.Spec.send (a0 m c) (a1 m c) (a2 m c) (bt ⟨n, hn⟩) j d := by
  intro n
  induction n using Nat.strong_induction_on with
  | _ n ih =>
    intro hn j d
    by_cases h0 : n % 9 = 0
    · exact first_tile m c ⟨n, hn⟩ h0 j d
    · have e2 := outs_B_snd m c ⟨n, hn⟩ h0
      have hpos : n - 1 < n := by omega
      rw [e2, ih (n - 1) hpos (Nat.lt_of_le_of_lt (Nat.sub_le _ _) hn) j d]
      have hb : bt ⟨n - 1, Nat.lt_of_le_of_lt (Nat.sub_le _ _) hn⟩ = bt ⟨n, hn⟩ := Fin.ext (by show (n - 1) / 9 = n / 9; omega)
      rw [hb]

/-! ## The output block at a point -/

/-- The scores computed from a scratch that holds the batch's sender projection, a tile's rows, the receiver half
    of the weight, the second layer's weight and its bias. -/
theorem block_score (c : Dev nD) (t : Fin cfg0.N) (xs : Vec Ideal S384x128 .f32) (r : Fin 40) (j : Fin 360)
    (hs : ∀ d : Fin 128, xs (ix2 (⟨j.val, by omega⟩ : Fin 384) d : S384x128.Idx) = Cert.Spec.send (a0 m c) (a1 m c) (a2 m c) (bt t) j d) :
    Gen.k0_pay3 (F := Ideal) xs (iblk m c 1 t) (iblk m c 3 t) (iblk m c 5 t) (iblk m c 6 t) (ix3 (0 : Fin 1) r (⟨j.val, by omega⟩ : Fin 384))
      = Cert.Spec.score (a0 m c) (a1 m c) (a2 m c) (a3 m c) (a4 m c) (bt t) (⟨40 * (t.val % 9) + r.val, by have := r.isLt; omega⟩ : Fin 360) j := by
  rw [Cert.KernelIdeal.Pay.pay3_apply]
  unfold Cert.Spec.score
  refine congrArg₂ max (congrArg₂ (· + ·) ?_ ?_) rfl
  · refine Finset.sum_congr rfl fun d _ => ?_
    rw [hs d, iblk5_apply, V_a3]
    refine congrArg₂ (· * ·) (congrArg₂ max (congrArg₂ (· + ·) ?_ rfl) rfl) rfl
    unfold Cert.Spec.recv
    exact Finset.sum_congr rfl fun f _ => by rw [iblk1_apply, iblk3_apply, V_a0, V_v3]
  · rw [iblk6_apply, V_v5]

/-- The output block written at a point holds the scores of the tile's receivers against every sender. -/
theorem out_val (c : Dev nD) (t : Fin cfg0.N) (r : Fin 40) (j : Fin 360) :
    (outsAt0 m c t.val t.isLt).1 (ix3 (0 : Fin 1) r (⟨j.val, by omega⟩ : Fin 384) : S1x40x384.Idx)
      = Cert.Spec.score (a0 m c) (a1 m c) (a2 m c) (a3 m c) (a4 m c) (bt t) (⟨40 * (t.val % 9) + r.val, by have := r.isLt; omega⟩ : Fin 360) j := by
  have hs : ∀ d : Fin 128, (outsAt0 m c t.val t.isLt).2 (ix2 (⟨j.val, by omega⟩ : Fin 384) d : S384x128.Idx)
      = Cert.Spec.send (a0 m c) (a1 m c) (a2 m c) (bt t) j d := fun d => scratch_inv m c t.val t.isLt j d
  by_cases h0 : t.val % 9 = 0
  · rw [outs_A_fst m c t h0, Cert.KernelIdeal.Pieces.out0_A_7_eq]
    exact block_score m c t _ r j (fun d => by rw [← outs_A_snd m c t h0]; exact hs d)
  · rw [outs_B_fst m c t h0, Cert.KernelIdeal.Pieces.out0_B_7_eq]
    exact block_score m c t _ r j (fun d => by rw [← outs_B_snd m c t h0]; exact hs d)

/-- The idealized kernel's result buffer ends at the specification's array of scores. -/
theorem kernel_value (c : Dev nD) :
    StableHlo.after hostOps1 (Wt m c) (Proc.devRef .tc main_v8) = Cert.Spec.G (a0 m c) (a1 m c) (a2 m c) (a3 m c) (a4 m c) :=
  Cert.KernelIdeal.Final.result_eq m c (out_val m c)

end Cert.KernelIdeal.Val

end
-- ==== Proof.RefIsSpec.lean ====
/-
  The reference computes the specification.

  Index by index, at (b, i, j, o) with o the one coordinate of the last axis, the reference is

      max (Σ_d max ((Σ_{c<256} edge[b,i,j,c] · W1[d,c]) + b1[d]) 0 · W2[o,d] + b2[0]) 0,

  where edge[b,i,j,c] = x[b,j,c] for a column c < 128 (the sender's features, repeated over i) and
  x[b,i,c-128] for a column c ≥ 128 (the receiver's features, repeated over j): the joined array read
  at a column of its first or of its second piece.  The sum over 256 columns is the sum over the first
  128 plus the sum over the last 128, and (S + R) + b1 = R + (S + b1) because addition on the
  extended reals is commutative and associative.  No finiteness is used.
-/
import proofs.«143059_j28613072126235_2_alg».proof.Proof.Gen.ReferenceIdeal.Read
import proofs.«143059_j28613072126235_2_alg».proof.Proof.Spec
import Idealize.ShloMosaic.Lib.Pipeline.Value
import Idealize.ShloMosaic.Lib.ValueIdx
import Idealize.ShloMosaic.PureOps.Ideal

noncomputable section

namespace Cert.RefSpec

open Cert.ReferenceIdeal Cert.ReferenceIdeal.Gen Cert.ReferenceIdeal.Read Idealize.ShloMosaic Idealize.ShloMosaic.ValueIdx
open scoped BigOperators

/-! ## The joined array at an index -/

/-- A column of the first piece: the sender's features, whatever the receiver row. -/
theorem edge_send (x0 : (⟨S8x360x128, .f32⟩ : BufTy).Contents (Elt Ideal))
    (b : Fin 8) (i j : Fin 360) (f : Fin 128) :
    val_main_v4 (F := Ideal) x0 (ix4 b i j (Cert.Spec.colS f)) = x0 (ix3 b j f) := by
  unfold val_main_v4
  refine (concatenate_pair_apply_left (3 : Fin 4) (val_main_v1 (F := Ideal) x0) (val_main_v3 (F := Ideal) x0)
    concatenates_S8x360x360x128_S8x360x360x128_S8x360x360x256_d3 (ix4 b i j (Cert.Spec.colS f)) rfl
    (ix4 b i j f) ?_).trans ?_
  · intro a
    match a with
    | ⟨0, _⟩ => rfl
    | ⟨1, _⟩ => rfl
    | ⟨2, _⟩ => rfl
    | ⟨3, _⟩ => rfl
  · rw [val_main_v1_apply, val_main_v0_apply]
    refine congrArg x0 (funext fun a => ?_)
    match a with
    | ⟨0, _⟩ => rfl
    | ⟨1, _⟩ => rfl
    | ⟨2, _⟩ => rfl

/-- A column of the second piece: the receiver's features, whatever the sender row. -/
theorem edge_recv (x0 : (⟨S8x360x128, .f32⟩ : BufTy).Contents (Elt Ideal))
    (b : Fin 8) (i j : Fin 360) (f : Fin 128) :
    val_main_v4 (F := Ideal) x0 (ix4 b i j (Cert.Spec.colR f)) = x0 (ix3 b i f) := by
  unfold val_main_v4
  refine (concatenate_pair_apply_right (3 : Fin 4) (val_main_v1 (F := Ideal) x0) (val_main_v3 (F := Ideal) x0)
    concatenates_S8x360x360x128_S8x360x360x128_S8x360x360x256_d3 (ix4 b i j (Cert.Spec.colR f)) rfl rfl
    (ix4 b i j f) ?_ ?_).trans ?_
  · intro a ha
    match a, ha with
    | ⟨0, _⟩, _ => rfl
    | ⟨1, _⟩, _ => rfl
    | ⟨2, _⟩, _ => rfl
    | ⟨3, _⟩, ha => exact absurd rfl ha
  · show f.val + 128 = 128 + f.val
    omega
  · rw [val_main_v3_apply, val_main_v2_apply]
    refine congrArg x0 (funext fun a => ?_)
    match a with
    | ⟨0, _⟩ => rfl
    | ⟨1, _⟩ => rfl
    | ⟨2, _⟩ => rfl

/-! ## A sum over 256 columns is the sum over each half -/

theorem sum_cols (g : Fin 256 → EReal) :
    ∑ k : Fin 256, g k = (∑ f : Fin 128, g (Cert.Spec.colS f)) + ∑ f : Fin 128, g (Cert.Spec.colR f) :=
  Fin.sum_univ_add (M := EReal) (a := 128) (b := 128) g

/-! ## The first contraction, split by halves -/

theorem lidx5 (b : Fin 8) (i j : Fin 360) (d : Fin 128) (k : Fin 256) :
    lidx_main_v5 (ix4 b i j d) k = ix4 b i j k :=
  funext fun a => by
    match a with
    | ⟨0, _⟩ => rfl
    | ⟨1, _⟩ => rfl
    | ⟨2, _⟩ => rfl
    | ⟨3, _⟩ => rfl

theorem ridx5 (b : Fin 8) (i j : Fin 360) (d : Fin 128) (k : Fin 256) :
    ridx_main_v5 (ix4 b i j d) k = ix2 d k :=
  funext fun a => by
    match a with
    | ⟨0, _⟩ => rfl
    | ⟨1, _⟩ => rfl

/-- The first layer before its bias: the sender's half plus the receiver's half. -/
theorem first_dot (x0 : (⟨S8x360x128, .f32⟩ : BufTy).Contents (Elt Ideal))
    (x1 : (⟨S128x256, .f32⟩ : BufTy).Contents (Elt Ideal))
    (b : Fin 8) (i j : Fin 360) (d : Fin 128) :
    val_main_v5 (F := Ideal) x0 x1 (ix4 b i j d)
      = (∑ f : Fin 128, x0 (ix3 b j f) * x1 (ix2 d (Cert.Spec.colS f)))
        + ∑ f : Fin 128, x0 (ix3 b i f) * x1 (ix2 d (Cert.Spec.colR f)) := by
  rw [val_main_v5_apply]
  refine (sum_cols _).trans ?_
  refine congrArg₂ (· + ·) (Finset.sum_congr rfl fun f _ => ?_) (Finset.sum_congr rfl fun f _ => ?_)
  · show val_main_v4 (F := Ideal) x0 (lidx_main_v5 (ix4 b i j d) (Cert.Spec.colS f))
        * x1 (ridx_main_v5 (ix4 b i j d) (Cert.Spec.colS f)) = _
    rw [lidx5, ridx5, edge_send]
  · show val_main_v4 (F := Ideal) x0 (lidx_main_v5 (ix4 b i j d) (Cert.Spec.colR f))
        * x1 (ridx_main_v5 (ix4 b i j d) (Cert.Spec.colR f)) = _
    rw [lidx5, ridx5, edge_recv]

/-! ## The hidden layer -/

theorem idx67 (b : Fin 8) (i j : Fin 360) (d : Fin 128) :
    idx_main_v6 (idx_main_v7 (ix4 b i j d)) = ix1 d :=
  funext fun a => by
    match a with
    | ⟨0, _⟩ => rfl

/-- The rectified first layer is the rectified sum of the two projections. -/
theorem hidden (x0 : (⟨S8x360x128, .f32⟩ : BufTy).Contents (Elt Ideal))
    (x1 : (⟨S128x256, .f32⟩ : BufTy).Contents (Elt Ideal))
    (x2 : (⟨S128, .f32⟩ : BufTy).Contents (Elt Ideal))
    (b : Fin 8) (i j : Fin 360) (d : Fin 128) :
    val_main_v9 (F := Ideal) x0 x1 x2 (ix4 b i j d)
      = max (Cert.Spec.recv x0 x1 b i d + Cert.Spec.send x0 x1 x2 b j d) Cert.Spec.z := by
  rw [val_main_v9_apply, val_main_v8_apply, val_main_call0_v0_apply, val_main_call0_cst_apply,
    val_main_v7_apply, val_main_v6_apply, first_dot, idx67, Ideal.maximumf_def, Ideal.addf_def]
  unfold Cert.Spec.recv Cert.Spec.send
  rw [add_comm (∑ f : Fin 128, x0 (ix3 b j f) * x1 (ix2 d (Cert.Spec.colS f))), add_assoc]
  rfl

/-! ## The output layer -/

theorem lidx10 (b : Fin 8) (i j : Fin 360) (o : Fin 1) (k : Fin 128) :
    lidx_main_v10 (ix4 b i j o) k = ix4 b i j k :=
  funext fun a => by
    match a with
    | ⟨0, _⟩ => rfl
    | ⟨1, _⟩ => rfl
    | ⟨2, _⟩ => rfl
    | ⟨3, _⟩ => rfl

theorem ridx10 (b : Fin 8) (i j : Fin 360) (o : Fin 1) (k : Fin 128) :
    ridx_main_v10 (ix4 b i j o) k = ix2 (0 : Fin 1) k :=
  funext fun a => by
    match a with
    | ⟨0, _⟩ => exact Fin.ext (show o.val = 0 from Nat.lt_one_iff.mp o.isLt)
    | ⟨1, _⟩ => rfl

theorem idx1112 (b : Fin 8) (i j : Fin 360) (o : Fin 1) :
    idx_main_v11 (idx_main_v12 (ix4 b i j o)) = ix1 (0 : Fin 1) :=
  funext fun a => by
    match a with
    | ⟨0, _⟩ => rfl

/-- The reference at an index is the edge's score. -/
theorem ref_apply (x0 : (⟨S8x360x128, .f32⟩ : BufTy).Contents (Elt Ideal))
    (x1 : (⟨S128x256, .f32⟩ : BufTy).Contents (Elt Ideal))
    (x2 : (⟨S128, .f32⟩ : BufTy).Contents (Elt Ideal))
    (x3 : (⟨S1x128, .f32⟩ : BufTy).Contents (Elt Ideal))
    (x4 : (⟨S1, .f32⟩ : BufTy).Contents (Elt Ideal))
    (b : Fin 8) (i j : Fin 360) (o : Fin 1) :
    val_main_v14 (F := Ideal) x0 x1 x2 x3 x4 (ix4 b i j o) = Cert.Spec.score x0 x1 x2 x3 x4 b i j := by
  rw [val_main_v14_apply, val_main_v13_apply, val_main_call1_v0_apply, val_main_call1_cst_apply,
    val_main_v12_apply, val_main_v11_apply, val_main_v10_apply, idx1112, Ideal.maximumf_def, Ideal.addf_def]
  unfold Cert.Spec.score
  refine congrArg₂ max (congrArg₂ (· + ·) (Finset.sum_congr rfl fun d _ => ?_) rfl) rfl
  rw [lidx10, ridx10, hidden]

/-- The reference's result is the specification. -/
theorem ref_eq (x0 : (⟨S8x360x128, .f32⟩ : BufTy).Contents (Elt Ideal))
    (x1 : (⟨S128x256, .f32⟩ : BufTy).Contents (Elt Ideal))
    (x2 : (⟨S128, .f32⟩ : BufTy).Contents (Elt Ideal))
    (x3 : (⟨S1x128, .f32⟩ : BufTy).Contents (Elt Ideal))
    (x4 : (⟨S1, .f32⟩ : BufTy).Contents (Elt Ideal)) :
    Cert.ReferenceIdeal.Read.val_main_v14 (F := Ideal) x0 x1 x2 x3 x4 = Cert.Spec.G x0 x1 x2 x3 x4 := by
  funext k
  obtain ⟨b, i, j, o, rfl⟩ : ∃ (b : Fin 8) (i : Fin 360) (j : Fin 360) (o : Fin 1), k = ix4 b i j o :=
    ⟨k 0, k 1, k 2, k 3, eq_ix4 k⟩
  exact ref_apply x0 x1 x2 x3 x4 b i j o

end Cert.RefSpec

end
-- ==== Proof.lean ====
/-
  Edge scores of a fully connected graph: for every batch and every ordered pair of nodes (receiver i, sender j),
  relu(W2 · relu(W1 · concat(x[j], x[i]) + b1) + b2).

  The kernel never forms the concatenation. It splits the first layer's weight into its sender and receiver
  halves, computes once per batch the sender projection x[j] · W1_sender^T + b1 into a scratch buffer (padded with
  zero rows up to 384), and for each tile of forty receivers computes the receiver projection x[i] · W1_receiver^T,
  adds the two, rectifies, contracts with W2, adds b2 and rectifies again; the padding columns are sliced off after
  the kernel. On the extended reals this is the reference's value index by index: the reference's contraction over
  the 256 concatenated columns is the sum of the two contractions over 128 columns, and the bias can be added to
  either summand, since addition there is commutative and associative (no finiteness is used).

  The three frames: each program terminates on every weakly fair execution, faults nowhere and leaves its five
  argument arrays unchanged. For the kernel (at both instances) this is a run of the pipelined region over its 72
  grid points — the embeddings array is read through two windows, each holding half of it; the scratch is carried
  from a batch's first tile to its later tiles — between the host operations before and after it. For the
  reference it is the run of its host operations.
-/
import proofs.«143059_j28613072126235_2_alg».proof.Defs
import proofs.«143059_j28613072126235_2_alg».proof.Proof.Gen.Kernel
import proofs.«143059_j28613072126235_2_alg».proof.Proof.Gen.KernelIdeal
import proofs.«143059_j28613072126235_2_alg».proof.Proof.Gen.ReferenceIdeal
import proofs.«143059_j28613072126235_2_alg».proof.Proof.Gen.Pre_finite_inputs
import proofs.«143059_j28613072126235_2_alg».proof.Proof.Gen.ReferenceIdeal.Run
import proofs.«143059_j28613072126235_2_alg».proof.Proof.Gen.ReferenceIdeal.Read
import proofs.«143059_j28613072126235_2_alg».proof.Proof.KB.Launch
import proofs.«143059_j28613072126235_2_alg».proof.Proof.KI.Launch
import proofs.«143059_j28613072126235_2_alg».proof.Proof.KI.Value
import proofs.«143059_j28613072126235_2_alg».proof.Proof.KI.Final
import proofs.«143059_j28613072126235_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's array of scores. -/
theorem algebraic : Cert.algebraic_KernelIdeal_ReferenceIdeal := by
  intro m ρ m' ρ' _ hagree
  refine ⟨fun c => Cert.Spec.G (Cert.KernelIdeal.Final.a0 m c) (Cert.KernelIdeal.Final.a1 m c) (Cert.KernelIdeal.Final.a2 m c)
    (Cert.KernelIdeal.Final.a3 m c) (Cert.KernelIdeal.Final.a4 m c), ?_, ?_⟩
  · exact (θ_run Cert.KernelIdeal.defs _ _).mono
      (fun _ h c => ⟨(h c).1.trans (Cert.KernelIdeal.Val.kernel_value m c), (h c).2⟩) (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.RefSpec.ref_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
